-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S3200000 : Shape := ⟨1, ![3200000]⟩
abbrev S64x16 : Shape := ⟨2, ![64, 16]⟩
abbrev S16 : Shape := ⟨1, ![16]⟩
abbrev S16x8 : Shape := ⟨2, ![16, 8]⟩
abbrev S8 : Shape := ⟨1, ![8]⟩
abbrev S8x8 : Shape := ⟨2, ![8, 8]⟩
abbrev S8x4 : Shape := ⟨2, ![8, 4]⟩
abbrev S4 : Shape := ⟨1, ![4]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg8 : FVec F S8 .f32) (main_arg9 : FVec F S8x4 .f32) (main_arg10 : FVec F S4 .f32) (main_v33 : IVec S_ 1) : IVec S_ 1 :=
  let main_v34 : FVec F S8 .f32 := Host.absf main_arg8
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8x4 .f32 := Host.absf main_arg9
  let main_cst_14 : FVec F S_ .f32 := constant S_ .f32 0x7F800000#32
  let main_v40 : FVec F S8x4 .f32 := broadcastInDim S8x4 ![] bcast_S_S8x4 main_cst_14
  let main_v41 : IVec S8x4 1 := cmpf .olt main_v39 main_v40
  let main_c_15 : IVec S_ 1 := constantI S_ 1 1#1
  let main_v42 : IVec S_ 1 := (fun x v => Host.reduce IntOp.andi x v reducesTo_S8x4_S_d0_1 h_S_) main_v41 main_c_15
  let main_v43 : IVec S_ 1 := andi main_v38 main_v42
  let main_v44 : FVec F S4 .f32 := Host.absf main_arg10
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  main_v48

def fn_part1 {F : FTy → Type} [FloatOps F] (main_arg5 : FVec F S16x8 .f32) (main_arg6 : FVec F S8 .f32) (main_arg7 : FVec F S8x8 .f32) (main_arg8 : FVec F S8 .f32) (main_arg9 : FVec F S8x4 .f32) (main_arg10 : FVec F S4 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x8 .f32 := Host.absf main_arg5
  let main_cst_6 : FVec F S_ .f32 := constant S_ .f32 0x7F800000#32
  let main_v20 : FVec F S16x8 .f32 := broadcastInDim S16x8 ![] bcast_S_S16x8 main_cst_6
  let main_v21 : IVec S16x8 1 := cmpf .olt main_v19 main_v20
  let main_c_7 : IVec S_ 1 := constantI S_ 1 1#1
  let main_v22 : IVec S_ 1 := (fun x v => Host.reduce IntOp.andi x v reducesTo_S16x8_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8x8 .f32 := Host.absf main_arg7
  let main_cst_10 : FVec F S_ .f32 := constant S_ .f32 0x7F800000#32
  let main_v30 : FVec F S8x8 .f32 := broadcastInDim S8x8 ![] bcast_S_S8x8 main_cst_10
  let main_v31 : IVec S8x8 1 := cmpf .olt main_v29 main_v30
  let main_c_11 : IVec S_ 1 := constantI S_ 1 1#1
  let main_v32 : IVec S_ 1 := (fun x v => Host.reduce IntOp.andi x v reducesTo_S8x8_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x3200000 32) (main_arg2 : FVec F S3200000 .f32) (main_arg3 : FVec F S64x16 .f32) (main_arg4 : FVec F S16 .f32) (main_arg5 : FVec F S16x8 .f32) (main_arg6 : FVec F S8 .f32) (main_arg7 : FVec F S8x8 .f32) (main_arg8 : FVec F S8 .f32) (main_arg9 : FVec F S8x4 .f32) (main_arg10 : FVec F S4 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S64x16 .f32 := Host.absf main_arg3
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x3200000 : Shape := ⟨2, ![2, 3200000]⟩
abbrev S3200000 : Shape := ⟨1, ![3200000]⟩
abbrev S64x16 : Shape := ⟨2, ![64, 16]⟩
abbrev S16 : Shape := ⟨1, ![16]⟩
abbrev S16x8 : Shape := ⟨2, ![16, 8]⟩
abbrev S8 : Shape := ⟨1, ![8]⟩
abbrev S8x8 : Shape := ⟨2, ![8, 8]⟩
abbrev S8x4 : Shape := ⟨2, ![8, 4]⟩
abbrev S4 : Shape := ⟨1, ![4]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x64 : Shape := ⟨2, ![2000, 64]⟩
abbrev S2000x16 : Shape := ⟨2, ![2000, 16]⟩
abbrev S3300000x16 : Shape := ⟨2, ![3300000, 16]⟩
abbrev S1x16 : Shape := ⟨2, ![1, 16]⟩
abbrev S100000x8 : Shape := ⟨2, ![100000, 8]⟩
abbrev S2000x8 : Shape := ⟨2, ![2000, 8]⟩
abbrev S3300000x8 : Shape := ⟨2, ![3300000, 8]⟩
abbrev S1x8 : Shape := ⟨2, ![1, 8]⟩
abbrev S100000x4 : Shape := ⟨2, ![100000, 4]⟩
abbrev S2000x4 : Shape := ⟨2, ![2000, 4]⟩
abbrev S3300000x4 : Shape := ⟨2, ![3300000, 4]⟩
abbrev S1x4 : Shape := ⟨2, ![1, 4]⟩

abbrev nBuf : Space → Nat
  | .hbm => 129
  | .vmem => 40
  | .smem => 0
  | _ => 0

abbrev hbmTy0_0 (i : Nat) : BufTy := match i % 128 with
  | 0 => ⟨S100000x64, .f32⟩
  | 1 => ⟨S2x3200000, .i32⟩
  | 2 => ⟨S3200000, .f32⟩
  | 3 => ⟨S64x16, .f32⟩
  | 4 => ⟨S16, .f32⟩
  | 5 => ⟨S16x8, .f32⟩
  | 6 => ⟨S8, .f32⟩
  | 7 => ⟨S8x8, .f32⟩
  | 8 => ⟨S8, .f32⟩
  | 9 => ⟨S8x4, .f32⟩
  | 10 => ⟨S4, .f32⟩
  | 11 => ⟨S1x3200000, .i32⟩
  | 12 => ⟨S3200000, .i32⟩
  | 13 => ⟨S1x3200000, .i32⟩
  | 14 => ⟨S3200000, .i32⟩
  | 15 => ⟨S100000, .i32⟩
  | 16 => ⟨S3300000, .i32⟩
  | 17 => ⟨S3300000, .i32⟩
  | 18 => ⟨S_, .f32⟩
  | 19 => ⟨S100000, .f32⟩
  | 20 => ⟨S3300000, .f32⟩
  | 21 => ⟨S_, .f32⟩
  | 22 => ⟨S100000, .f32⟩
  | 23 => ⟨S3300000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S100000x16, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x16, .f32⟩
  | 63 => ⟨S3300000x1, .f32⟩
  | 64 => ⟨S3300000x16, .f32⟩
  | 65 => ⟨S3300000x16, .f32⟩
  | 66 => ⟨S_, .f32⟩
  | 67 => ⟨S100000x16, .f32⟩
  | 68 => ⟨S3300000x1, .i32⟩
  | 69 => ⟨S100000x16, .f32⟩
  | 70 => ⟨S1x16, .f32⟩
  | 71 => ⟨S100000x16, .f32⟩
  | 72 => ⟨S100000x8, .f32⟩
  | 73 => ⟨S_, .i32⟩
  | 74 => ⟨S3300000, .i32⟩
  | 75 => ⟨S3300000, .i1⟩
  | 76 => ⟨S_, .i32⟩
  | 77 => ⟨S3300000, .i32⟩
  | 78 => ⟨S3300000, .i32⟩
  | 79 => ⟨S3300000, .i32⟩
  | 80 => ⟨S3300000x1, .i32⟩
  | 81 => ⟨S3300000x8, .f32⟩
  | 82 => ⟨S3300000x1, .f32⟩
  | 83 => ⟨S3300000x8, .f32⟩
  | 84 => ⟨S3300000x8, .f32⟩
  | 85 => ⟨S_, .f32⟩
  | 86 => ⟨S100000x8, .f32⟩
  | 87 => ⟨S3300000x1, .i32⟩
  | 88 => ⟨S100000x8, .f32⟩
  | 89 => ⟨S1x8, .f32⟩
  | 90 => ⟨S100000x8, .f32⟩
  | 91 => ⟨S100000x8, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000x8, .f32⟩
  | 101 => ⟨S3300000x1, .f32⟩
  | 102 => ⟨S3300000x8, .f32⟩
  | 103 => ⟨S3300000x8, .f32⟩
  | 104 => ⟨S_, .f32⟩
  | 105 => ⟨S100000x8, .f32⟩
  | 106 => ⟨S3300000x1, .i32⟩
  | 107 => ⟨S100000x8, .f32⟩
  | 108 => ⟨S1x8, .f32⟩
  | 109 => ⟨S100000x8, .f32⟩
  | 110 => ⟨S100000x4, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000x4, .f32⟩
  | 120 => ⟨S3300000x1, .f32⟩
  | 121 => ⟨S3300000x4, .f32⟩
  | 122 => ⟨S3300000x4, .f32⟩
  | 123 => ⟨S_, .f32⟩
  | 124 => ⟨S100000x4, .f32⟩
  | 125 => ⟨S3300000x1, .i32⟩
  | 126 => ⟨S100000x4, .f32⟩
  | 127 => ⟨S1x4, .f32⟩
  | _ => ⟨S100000x64, .f32⟩

abbrev hbmTy0_1 (i : Nat) : BufTy := match i % 128 with
  | 0 => ⟨S100000x4, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S16x8, .f32⟩
  | .local _ .vmem, ⟨13, _⟩ => ⟨S2000x8, .f32⟩
  | .local _ .vmem, ⟨14, _⟩ => ⟨S2000x8, .f32⟩
  | .local _ .vmem, ⟨15, _⟩ => ⟨S2000x8, .f32⟩
  | .local _ .vmem, ⟨16, _⟩ => ⟨S2000x8, .f32⟩
  | .local _ .vmem, ⟨17, _⟩ => ⟨S1x8, .f32⟩
  | .local _ .vmem, ⟨18, _⟩ => ⟨S2000x8, .f32⟩
  | .local _ .vmem, ⟨19, _⟩ => ⟨S2000x8, .f32⟩
  | .local _ .vmem, ⟨20, _⟩ => ⟨S2000x8, .f32⟩
  | .local _ .vmem, ⟨21, _⟩ => ⟨S2000x8, .f32⟩
  | .local _ .vmem, ⟨22, _⟩ => ⟨S8x8, .f32⟩
  | .local _ .vmem, ⟨23, _⟩ => ⟨S2000x8, .f32⟩
  | .local _ .vmem, ⟨24, _⟩ => ⟨S2000x8, .f32⟩
  | .local _ .vmem, ⟨25, _⟩ => ⟨S2000x8, .f32⟩
  | .local _ .vmem, ⟨26, _⟩ => ⟨S2000x8, .f32⟩
  | .local _ .vmem, ⟨27, _⟩ => ⟨S1x8, .f32⟩
  | .local _ .vmem, ⟨28, _⟩ => ⟨S2000x8, .f32⟩
  | .local _ .vmem, ⟨29, _⟩ => ⟨S2000x8, .f32⟩
  | .local _ .vmem, ⟨30, _⟩ => ⟨S2000x8, .f32⟩
  | .local _ .vmem, ⟨31, _⟩ => ⟨S2000x8, .f32⟩
  | .local _ .vmem, ⟨32, _⟩ => ⟨S8x4, .f32⟩
  | .local _ .vmem, ⟨33, _⟩ => ⟨S2000x4, .f32⟩
  | .local _ .vmem, ⟨34, _⟩ => ⟨S2000x4, .f32⟩
  | .local _ .vmem, ⟨35, _⟩ => ⟨S2000x4, .f32⟩
  | .local _ .vmem, ⟨36, _⟩ => ⟨S2000x4, .f32⟩
  | .local _ .vmem, ⟨37, _⟩ => ⟨S1x4, .f32⟩
  | .local _ .vmem, ⟨38, _⟩ => ⟨S2000x4, .f32⟩
  | .local _ .vmem, ⟨39, _⟩ => ⟨S2000x4, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_15 : Ref sig .tc := ⟨.hbm, 111, rfl⟩
abbrev main_v81 : Ref sig .tc := ⟨.hbm, 112, rfl⟩
abbrev main_v82 : Ref sig .tc := ⟨.hbm, 113, rfl⟩
abbrev main_c_16 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_17 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x8 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8x8 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x8 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x8 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x8 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x8 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x8 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8x4 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x4 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x4 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x4 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x4 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x8_S16x8_0_0 : ∀ a, (![0, 0] : Fin 2 → Nat) a + S16x8.size a ≤ S16x8.size a
  h_S16x8 : 0 < S16x8.numel
  inb_S2000x8_S2000x8_0_0 : ∀ a, (![0, 0] : Fin 2 → Nat) a + S2000x8.size a ≤ S2000x8.size a
  h_S2000x8 : 0 < S2000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  shapeCasts_S8_S1x8 : S8.ShapeCasts S1x8
  shapeCasts_S2000x8_S2000x8 : S2000x8.ShapeCasts S2000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  inb_S8x8_S8x8_0_0 : ∀ a, (![0, 0] : Fin 2 → Nat) a + S8x8.size a ≤ S8x8.size a
  h_S8x8 : 0 < S8x8.numel
  inb_S8x4_S8x4_0_0 : ∀ a, (![0, 0] : Fin 2 → Nat) a + S8x4.size a ≤ S8x4.size a
  h_S8x4 : 0 < S8x4.numel
  inb_S2000x4_S2000x4_0_0 : ∀ a, (![0, 0] : Fin 2 → Nat) a + S2000x4.size a ≤ S2000x4.size a
  h_S2000x4 : 0 < S2000x4.numel
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  shapeCasts_S4_S1x4 : S4.ShapeCasts S1x4
  shapeCasts_S2000x4_S2000x4 : S2000x4.ShapeCasts S2000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2000x4 : S1x4.Broadcasts S2000x4
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x64_S64x16_S2000x16_1_0_0_1_n_n_wf : DotDims.WF S2000x64 S64x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x8_S2000x8_1_0_0_1_n_n_wf : DotDims.WF S2000x16 S16x8 S2000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S2000x8_S8x8_S2000x8_1_0_0_1_n_n_wf : DotDims.WF S2000x8 S8x8 S2000x8 [1] [0] [0] [1] [] []
  dot_S2000x8_S8x4_S2000x4_1_0_0_1_n_n_wf : DotDims.WF S2000x8 S8x4 S2000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x8.size a ≤ S16x8.size a
  hwx2_1 : ∀ i : grid2.Coords, EltTy.bits .f32 = 32 ∨ (Rect.block (s := S16x8) S16x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x8.size a ≤ S100000x8.size a
  hwx2_2 : ∀ i : grid2.Coords, EltTy.bits .f32 = 32 ∨ (Rect.block (s := S100000x8) S2000x8.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x8.size a ≤ S100000x8.size a
  hwx3_0 : ∀ i : grid3.Coords, EltTy.bits .f32 = 32 ∨ (Rect.block (s := S100000x8) S2000x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x8.size a ≤ S1x8.size a
  hwx3_1 : ∀ i : grid3.Coords, EltTy.bits .f32 = 32 ∨ (Rect.block (s := S1x8) S1x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x8.size a ≤ S100000x8.size a
  hwx3_2 : ∀ i : grid3.Coords, EltTy.bits .f32 = 32 ∨ (Rect.block (s := S100000x8) S2000x8.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x8.size a ≤ S100000x8.size a
  hwx4_0 : ∀ i : grid4.Coords, EltTy.bits .f32 = 32 ∨ (Rect.block (s := S100000x8) S2000x8.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8x8.size a ≤ S8x8.size a
  hwx4_1 : ∀ i : grid4.Coords, EltTy.bits .f32 = 32 ∨ (Rect.block (s := S8x8) S8x8.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x8.size a ≤ S100000x8.size a
  hwx4_2 : ∀ i : grid4.Coords, EltTy.bits .f32 = 32 ∨ (Rect.block (s := S100000x8) S2000x8.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x8.size a ≤ S100000x8.size a
  hwx5_0 : ∀ i : grid5.Coords, EltTy.bits .f32 = 32 ∨ (Rect.block (s := S100000x8) S2000x8.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x8.size a ≤ S1x8.size a
  hwx5_1 : ∀ i : grid5.Coords, EltTy.bits .f32 = 32 ∨ (Rect.block (s := S1x8) S1x8.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x8.size a ≤ S100000x8.size a
  hwx5_2 : ∀ i : grid5.Coords, EltTy.bits .f32 = 32 ∨ (Rect.block (s := S100000x8) S2000x8.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x8.size a ≤ S100000x8.size a
  hwx6_0 : ∀ i : grid6.Coords, EltTy.bits .f32 = 32 ∨ (Rect.block (s := S100000x8) S2000x8.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S8x4.size a ≤ S8x4.size a
  hwx6_1 : ∀ i : grid6.Coords, EltTy.bits .f32 = 32 ∨ (Rect.block (s := S8x4) S8x4.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x4.size a ≤ S100000x4.size a
  hwx6_2 : ∀ i : grid6.Coords, EltTy.bits .f32 = 32 ∨ (Rect.block (s := S100000x4) S2000x4.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x4.size a ≤ S100000x4.size a
  hwx7_0 : ∀ i : grid7.Coords, EltTy.bits .f32 = 32 ∨ (Rect.block (s := S100000x4) S2000x4.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x4.size a ≤ S1x4.size a
  hwx7_1 : ∀ i : grid7.Coords, EltTy.bits .f32 = 32 ∨ (Rect.block (s := S1x4) S1x4.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x4.size a ≤ S100000x4.size a
  hwx7_2 : ∀ i : grid7.Coords, EltTy.bits .f32 = 32 ∨ (Rect.block (s := S100000x4) S2000x4.size (cc7_transform_2 i) (hinb7_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x8_S2000x8_1_0_0_1_n_n : DotDims S2000x16 S16x8 S2000x8 where
  lhsContracting := [1]
  rhsContracting := [0]
  lhsNonContracting := [0]
  rhsNonContracting := [1]
  lhsBatch := []
  rhsBatch := []
  wf := dot_S2000x16_S16x8_S2000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S2000x8_S8x8_S2000x8_1_0_0_1_n_n : DotDims S2000x8 S8x8 S2000x8 where
  lhsContracting := [1]
  rhsContracting := [0]
  lhsNonContracting := [0]
  rhsNonContracting := [1]
  lhsBatch := []
  rhsBatch := []
  wf := dot_S2000x8_S8x8_S2000x8_1_0_0_1_n_n_wf
def dot_S2000x8_S8x4_S2000x4_1_0_0_1_n_n : DotDims S2000x8 S8x4 S2000x4 where
  lhsContracting := [1]
  rhsContracting := [0]
  lhsNonContracting := [0]
  rhsNonContracting := [1]
  lhsBatch := []
  rhsBatch := []
  wf := dot_S2000x8_S8x4_S2000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x8.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S2000x8.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S8x8.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S2000x8.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S2000x8.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x8.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S2000x8.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v79) S2000x8.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S8x4.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S2000x4.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v93) S2000x4.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v94) S1x4.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v95) S2000x4.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S3200000 : Shape := ⟨1, ![3200000]⟩
abbrev S64x16 : Shape := ⟨2, ![64, 16]⟩
abbrev S16 : Shape := ⟨1, ![16]⟩
abbrev S16x8 : Shape := ⟨2, ![16, 8]⟩
abbrev S8 : Shape := ⟨1, ![8]⟩
abbrev S8x8 : Shape := ⟨2, ![8, 8]⟩
abbrev S8x4 : Shape := ⟨2, ![8, 4]⟩
abbrev S4 : Shape := ⟨1, ![4]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x8 : Shape := ⟨2, ![100000, 8]⟩
abbrev S3300000x8 : Shape := ⟨2, ![3300000, 8]⟩
abbrev S1x8 : Shape := ⟨2, ![1, 8]⟩
abbrev S100000x4 : Shape := ⟨2, ![100000, 4]⟩
abbrev S3300000x4 : Shape := ⟨2, ![3300000, 4]⟩
abbrev S1x4 : Shape := ⟨2, ![1, 4]⟩

abbrev nBuf : Space → Nat
  | .hbm => 145
  | .vmem => 0
  | .smem => 0
  | _ => 0

abbrev hbmTy0_0 (i : Nat) : BufTy := match i % 128 with
  | 0 => ⟨S100000x64, .f32⟩
  | 1 => ⟨S2x3200000, .i32⟩
  | 2 => ⟨S3200000, .f32⟩
  | 3 => ⟨S64x16, .f32⟩
  | 4 => ⟨S16, .f32⟩
  | 5 => ⟨S16x8, .f32⟩
  | 6 => ⟨S8, .f32⟩
  | 7 => ⟨S8x8, .f32⟩
  | 8 => ⟨S8, .f32⟩
  | 9 => ⟨S8x4, .f32⟩
  | 10 => ⟨S4, .f32⟩
  | 11 => ⟨S1x3200000, .i32⟩
  | 12 => ⟨S3200000, .i32⟩
  | 13 => ⟨S1x3200000, .i32⟩
  | 14 => ⟨S3200000, .i32⟩
  | 15 => ⟨S100000, .i32⟩
  | 16 => ⟨S3300000, .i32⟩
  | 17 => ⟨S3300000, .i32⟩
  | 18 => ⟨S_, .f32⟩
  | 19 => ⟨S100000, .f32⟩
  | 20 => ⟨S3300000, .f32⟩
  | 21 => ⟨S_, .f32⟩
  | 22 => ⟨S100000, .f32⟩
  | 23 => ⟨S3300000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S100000x16, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x16, .f32⟩
  | 63 => ⟨S3300000x1, .f32⟩
  | 64 => ⟨S3300000x16, .f32⟩
  | 65 => ⟨S3300000x16, .f32⟩
  | 66 => ⟨S_, .f32⟩
  | 67 => ⟨S100000x16, .f32⟩
  | 68 => ⟨S3300000x1, .i32⟩
  | 69 => ⟨S100000x16, .f32⟩
  | 70 => ⟨S1x16, .f32⟩
  | 71 => ⟨S100000x16, .f32⟩
  | 72 => ⟨S100000x16, .f32⟩
  | 73 => ⟨S_, .f32⟩
  | 74 => ⟨S100000x16, .f32⟩
  | 75 => ⟨S100000x16, .f32⟩
  | 76 => ⟨S100000x8, .f32⟩
  | 77 => ⟨S_, .i32⟩
  | 78 => ⟨S3300000, .i32⟩
  | 79 => ⟨S3300000, .i1⟩
  | 80 => ⟨S_, .i32⟩
  | 81 => ⟨S3300000, .i32⟩
  | 82 => ⟨S3300000, .i32⟩
  | 83 => ⟨S3300000, .i32⟩
  | 84 => ⟨S3300000x1, .i32⟩
  | 85 => ⟨S3300000x8, .f32⟩
  | 86 => ⟨S3300000x1, .f32⟩
  | 87 => ⟨S3300000x8, .f32⟩
  | 88 => ⟨S3300000x8, .f32⟩
  | 89 => ⟨S_, .f32⟩
  | 90 => ⟨S100000x8, .f32⟩
  | 91 => ⟨S3300000x1, .i32⟩
  | 92 => ⟨S100000x8, .f32⟩
  | 93 => ⟨S1x8, .f32⟩
  | 94 => ⟨S100000x8, .f32⟩
  | 95 => ⟨S100000x8, .f32⟩
  | 96 => ⟨S_, .f32⟩
  | 97 => ⟨S100000x8, .f32⟩
  | 98 => ⟨S100000x8, .f32⟩
  | 99 => ⟨S100000x8, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000x8, .f32⟩
  | 109 => ⟨S3300000x1, .f32⟩
  | 110 => ⟨S3300000x8, .f32⟩
  | 111 => ⟨S3300000x8, .f32⟩
  | 112 => ⟨S_, .f32⟩
  | 113 => ⟨S100000x8, .f32⟩
  | 114 => ⟨S3300000x1, .i32⟩
  | 115 => ⟨S100000x8, .f32⟩
  | 116 => ⟨S1x8, .f32⟩
  | 117 => ⟨S100000x8, .f32⟩
  | 118 => ⟨S100000x8, .f32⟩
  | 119 => ⟨S_, .f32⟩
  | 120 => ⟨S100000x8, .f32⟩
  | 121 => ⟨S100000x8, .f32⟩
  | 122 => ⟨S100000x4, .f32⟩
  | 123 => ⟨S_, .i32⟩
  | 124 => ⟨S3300000, .i32⟩
  | 125 => ⟨S3300000, .i1⟩
  | 126 => ⟨S_, .i32⟩
  | 127 => ⟨S3300000, .i32⟩
  | _ => ⟨S100000x64, .f32⟩

abbrev hbmTy0_1 (i : Nat) : BufTy := match i % 128 with
  | 0 => ⟨S3300000, .i32⟩
  | 1 => ⟨S3300000, .i32⟩
  | 2 => ⟨S3300000x1, .i32⟩
  | 3 => ⟨S3300000x4, .f32⟩
  | 4 => ⟨S3300000x1, .f32⟩
  | 5 => ⟨S3300000x4, .f32⟩
  | 6 => ⟨S3300000x4, .f32⟩
  | 7 => ⟨S_, .f32⟩
  | 8 => ⟨S100000x4, .f32⟩
  | 9 => ⟨S3300000x1, .i32⟩
  | 10 => ⟨S100000x4, .f32⟩
  | 11 => ⟨S1x4, .f32⟩
  | 12 => ⟨S100000x4, .f32⟩
  | 13 => ⟨S100000x4, .f32⟩
  | 14 => ⟨S_, .f32⟩
  | 15 => ⟨S100000x4, .f32⟩
  | 16 => ⟨S100000x4, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_9 : Ref sig .tc := ⟨.hbm, 77, rfl⟩
abbrev main_v51 : Ref sig .tc := ⟨.hbm, 78, rfl⟩
abbrev main_v52 : Ref sig .tc := ⟨.hbm, 79, rfl⟩
abbrev main_c_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_c_12 : Ref sig .tc := ⟨.hbm, 100, rfl⟩
abbrev main_v69 : Ref sig .tc := ⟨.hbm, 101, rfl⟩
abbrev main_v70 : Ref sig .tc := ⟨.hbm, 102, rfl⟩
abbrev main_c_13 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_14 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call3_cst : Ref sig .tc := ⟨.hbm, 119, rfl⟩
abbrev main_call3_v0 : Ref sig .tc := ⟨.hbm, 120, rfl⟩
abbrev main_v85 : Ref sig .tc := ⟨.hbm, 121, rfl⟩
abbrev main_v86 : Ref sig .tc := ⟨.hbm, 122, rfl⟩
abbrev main_c_15 : Ref sig .tc := ⟨.hbm, 123, rfl⟩
abbrev main_v87 : Ref sig .tc := ⟨.hbm, 124, rfl⟩
abbrev main_v88 : Ref sig .tc := ⟨.hbm, 125, rfl⟩
abbrev main_c_16 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_17 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_call4_cst : Ref sig .tc := ⟨.hbm, 142, rfl⟩
abbrev main_call4_v0 : Ref sig .tc := ⟨.hbm, 143, rfl⟩
abbrev main_v103 : Ref sig .tc := ⟨.hbm, 144, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x64_S64x16_S100000x16_1_0_0_1_n_n_wf : DotDims.WF S100000x64 S64x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x8_S100000x8_1_0_0_1_n_n_wf : DotDims.WF S100000x16 S16x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S100000x8_S8x8_S100000x8_1_0_0_1_n_n_wf : DotDims.WF S100000x8 S8x8 S100000x8 [1] [0] [0] [1] [] []
  dot_S100000x8_S8x4_S100000x4_1_0_0_1_n_n_wf : DotDims.WF S100000x8 S8x4 S100000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S100000x8_S8x8_S100000x8_1_0_0_1_n_n : DotDims S100000x8 S8x8 S100000x8 where
  lhsContracting := [1]
  rhsContracting := [0]
  lhsNonContracting := [0]
  rhsNonContracting := [1]
  lhsBatch := []
  rhsBatch := []
  wf := dot_S100000x8_S8x8_S100000x8_1_0_0_1_n_n_wf
def dot_S100000x8_S8x4_S100000x4_1_0_0_1_n_n : DotDims S100000x8 S8x4 S100000x4 where
  lhsContracting := [1]
  rhsContracting := [0]
  lhsNonContracting := [0]
  rhsNonContracting := [1]
  lhsBatch := []
  rhsBatch := []
  wf := dot_S100000x8_S8x4_S100000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf

class Facts : Prop extends Facts₀ where

variable [Facts]
-- ==== Proof.KernelRun.lean ====
/-
  The run of the kernel's program with its result named.

  Every weakly fair execution of the program from a memory with zero counters terminates without a fault; in every final
  state the result array holds what the chain of boundary contents leaves there — the host stretches' operations and,
  for each of the eight grid regions, the blocks its points wrote back — and the eleven argument arrays are as launched.
  The boundary contents `W0 … W15` are the ones the frame proof folds through the program; this statement keeps, next to
  the arguments, the last boundary's contents at the result array.
-/
import proofs.«165093_j63015760166990_1_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and the arguments as launched. -/
theorem run_out : θ_run defs (onTc (τ := τ) (main (F := F))) ⟨m, fun _ => 0, ρ⟩ (fun r => ∀ c : Dev nD,
      r.2.mem ((c.tc : Thread nD τ).loc main_v95) = W15 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v95 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c)⟩)

end Cert.KernelIdeal.RunOut

end
-- ==== Proof.Spec.lean ====
/-
  The two layer maps of the network, as functions of whole arrays over the extended reals.

  `lin A B` is the matrix product of an `M × K` array by a `K × N` array: entry `(a, b)` is the sum over the
  contracted coordinate `c` of `A (a, c) * B (c, b)`.  `biasRelu a b` adds the row vector `b` (given as a
  `1 × N` array) to every row of the `M × N` array `a` and takes the maximum with zero, entry by entry.
-/
import Idealize.ShloMosaic.Lib.ValueIdx
import Idealize.ShloMosaic.PureOps.Ideal

noncomputable section

open scoped BigOperators

namespace Cert.Spec

open Idealize.ShloMosaic Idealize.ShloMosaic.ValueIdx

/-- The matrix product: entry `(a, b)` is `∑ c, A (a, c) * B (c, b)`. -/
def lin {M K N : ℕ} (A : (⟨2, ![M, K]⟩ : Shape).Idx → EReal) (B : (⟨2, ![K, N]⟩ : Shape).Idx → EReal) :
    (⟨2, ![M, N]⟩ : Shape).Idx → EReal :=
  fun i => ∑ c : Fin K, A (ix2 (i 0) c) * B (ix2 c (i 1))

/-- A row vector added to every row, then the maximum with zero: entry `(a, b)` is `max (x (a, b) + r (0, b)) 0`. -/
def biasRelu {M N : ℕ} (x : (⟨2, ![M, N]⟩ : Shape).Idx → EReal) (r : (⟨2, ![1, N]⟩ : Shape).Idx → EReal) :
    (⟨2, ![M, N]⟩ : Shape).Idx → EReal :=
  fun i => max (x i + r (ix2 (0 : Fin 1) (i 1))) 0

theorem lin_apply {M K N : ℕ} (A : (⟨2, ![M, K]⟩ : Shape).Idx → EReal) (B : (⟨2, ![K, N]⟩ : Shape).Idx → EReal)
    (a : Fin M) (b : Fin N) : lin A B (ix2 a b) = ∑ c : Fin K, A (ix2 a c) * B (ix2 c b) := rfl

theorem biasRelu_apply {M N : ℕ} (x : (⟨2, ![M, N]⟩ : Shape).Idx → EReal) (r : (⟨2, ![1, N]⟩ : Shape).Idx → EReal)
    (a : Fin M) (b : Fin N) : biasRelu x r (ix2 a b) = max (x (ix2 a b) + r (ix2 (0 : Fin 1) b)) 0 := rfl

end Cert.Spec

end
-- ==== Proof.Net.lean ====
/-
  The network as one function of the argument arrays, over the extended reals.

  From the edge list `ei` (two rows of node numbers) and the edge weights `ew`: the sources and the targets of the
  messages, each followed by every node once (a self loop per node); the weights followed by a one per self loop; the
  weighted in-degree `deg` of every node (a sum of the weights over the messages that arrive there); its inverse square
  root where the degree is positive and zero elsewhere; and the symmetric coefficient of a message, the product of the
  inverse square roots at its two ends and its weight.  A node number below zero is read from the end of the node list
  (`wrapIdx`), as the array library reads a negative index.
  One layer maps node features `h` to `max (A (h W) + b, 0)`: the matrix product with the weights (`Cert.Spec.lin`),
  the rows gathered at the sources, scaled by the coefficients and summed into the targets (`agg`), then the bias row
  added and the negative part cut (`Cert.Spec.biasRelu`).  The network is four layers, of widths 16, 8, 8 and 4.
-/
import proofs.«165093_j63015760166990_1_alg».proof.Proof.Gen.KernelIdeal
import proofs.«165093_j63015760166990_1_alg».proof.Proof.Spec
import Idealize.ShloMosaic.PureOps.Ideal

noncomputable section

namespace Cert.Net

open Cert.KernelIdeal Cert.KernelIdeal.Facts₀ Cert.KernelIdeal.Facts Idealize.ShloMosaic

/-- Contents of a buffer of 32-bit integers, and of floats, of a given shape. -/
abbrev IArr (S : Shape) : Type := IVec S 32
abbrev FArr (S : Shape) : Type := FVec Ideal S .f32

/-- Row `r` of the edge list followed by every node number once. -/
def srcIdx (ei : IArr S2x3200000) : IArr S3300000 :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

def dstIdx (ei : IArr S2x3200000) : IArr S3300000 :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- The edge weights followed by a one for every self loop. -/
def ewFull (ew : FArr S3200000) : FArr S3300000 :=
  concatenate S3300000 0 [⟨S3200000, ew⟩, ⟨S100000, (broadcastInDim S100000 ![] bcast_S_S100000 (constant (F := Ideal) S_ .f32 0x3F800000#32))⟩] concatenates_S3200000_S100000_S3300000_d0

/-- The weighted in-degree: the weights summed into their targets. -/
def deg (d : IArr S3300000) (w : FArr S3300000) : FArr S100000 :=
  Host.scatterAdd (F := Ideal) scatter_S100000_S3300000x1_S3300000_n_0_0_1 (broadcastInDim S100000 ![] bcast_S_S100000 (constant (F := Ideal) S_ .f32 0x00000000#32)) (broadcastInDim S3300000x1 ![0] bcast_S3300000_S3300000x1_0 d) w

/-- The inverse square root of the degree where it is positive, zero elsewhere. -/
def dinv (g : FArr S100000) : FArr S100000 :=
  select (cmpf (F := Ideal) .ogt g (broadcastInDim S100000 ![] bcast_S_S100000 (constant (F := Ideal) S_ .f32 0x00000000#32))) (Host.rsqrt (F := Ideal) g) (broadcastInDim S100000 ![] bcast_S_S100000 (id (constant (F := Ideal) S_ .f32 0x00000000#32)))

/-- A node number below zero counted from the end of the node list. -/
def wrapIdx (i : IArr S3300000) : IArr S3300000 :=
  select (cmpi .slt i (broadcastInDim S3300000 ![] bcast_S_S3300000 (constantI S_ 32 0#32))) (addi i (broadcastInDim S3300000 ![] bcast_S_S3300000 (constantI S_ 32 100000#32))) i

/-- A per-node quantity read at the node of every message. -/
def atNodes (v : FArr S100000) (i : IArr S3300000) : FArr S3300000 :=
  Host.gather gather_S100000_S3300000x1_S3300000_n_0_n_n_0_1_1 v (broadcastInDim S3300000x1 ![0] bcast_S3300000_S3300000x1_0 (wrapIdx i))

/-- The coefficient of every message: the inverse square roots at its source and its target, and its weight. -/
def coef (s d : IArr S3300000) (w : FArr S3300000) : FArr S3300000 :=
  mulf (F := Ideal) (mulf (F := Ideal) (atNodes (dinv (deg d w)) s) w) (atNodes (dinv (deg d w)) d)

/-- Rows of `hw` gathered at the sources, scaled by the coefficients, summed into the targets: width 16. -/
def agg16 (s d : IArr S3300000) (n : FArr S3300000) (hw : FArr S100000x16) : FArr S100000x16 :=
  Host.scatterAdd (F := Ideal) scatter_S100000x16_S3300000x1_S3300000x16_1_0_0_1 (broadcastInDim S100000x16 ![] bcast_S_S100000x16 (constant (F := Ideal) S_ .f32 0x00000000#32)) (broadcastInDim S3300000x1 ![0] bcast_S3300000_S3300000x1_0 d) (mulf (F := Ideal) (Host.gather gather_S100000x16_S3300000x1_S3300000x16_1_0_n_n_0_1_116 hw (broadcastInDim S3300000x1 ![0] bcast_S3300000_S3300000x1_0 (wrapIdx s))) (broadcastInDim S3300000x16 ![0, 1] bcast_S3300000x1_S3300000x16_0_1 (broadcastInDim S3300000x1 ![0] bcast_S3300000_S3300000x1_0 n)))

/-- The same at width 8. -/
def agg8 (s d : IArr S3300000) (n : FArr S3300000) (hw : FArr S100000x8) : FArr S100000x8 :=
  Host.scatterAdd (F := Ideal) scatter_S100000x8_S3300000x1_S3300000x8_1_0_0_1 (broadcastInDim S100000x8 ![] bcast_S_S100000x8 (constant (F := Ideal) S_ .f32 0x00000000#32)) (broadcastInDim S3300000x1 ![0] bcast_S3300000_S3300000x1_0 d) (mulf (F := Ideal) (Host.gather gather_S100000x8_S3300000x1_S3300000x8_1_0_n_n_0_1_18 hw (broadcastInDim S3300000x1 ![0] bcast_S3300000_S3300000x1_0 (wrapIdx s))) (broadcastInDim S3300000x8 ![0, 1] bcast_S3300000x1_S3300000x8_0_1 (broadcastInDim S3300000x1 ![0] bcast_S3300000_S3300000x1_0 n)))

/-- The same at width 4. -/
def agg4 (s d : IArr S3300000) (n : FArr S3300000) (hw : FArr S100000x4) : FArr S100000x4 :=
  Host.scatterAdd (F := Ideal) scatter_S100000x4_S3300000x1_S3300000x4_1_0_0_1 (broadcastInDim S100000x4 ![] bcast_S_S100000x4 (constant (F := Ideal) S_ .f32 0x00000000#32)) (broadcastInDim S3300000x1 ![0] bcast_S3300000_S3300000x1_0 d) (mulf (F := Ideal) (Host.gather gather_S100000x4_S3300000x1_S3300000x4_1_0_n_n_0_1_14 hw (broadcastInDim S3300000x1 ![0] bcast_S3300000_S3300000x1_0 (wrapIdx s))) (broadcastInDim S3300000x4 ![0, 1] bcast_S3300000x1_S3300000x4_0_1 (broadcastInDim S3300000x1 ![0] bcast_S3300000_S3300000x1_0 n)))

/-- A bias vector as a one-row array. -/
def row16 (b : FArr S16) : FArr S1x16 := shapeCast S1x16 b shapeCasts_S16_S1x16
def row8 (b : FArr S8) : FArr S1x8 := shapeCast S1x8 b shapeCasts_S8_S1x8
def row4 (b : FArr S4) : FArr S1x4 := shapeCast S1x4 b shapeCasts_S4_S1x4

/-- The four layers, from the messages' sources `s`, targets `d` and coefficients `n`. -/
def layers (s d : IArr S3300000) (n : FArr S3300000) (x : FArr S100000x64) (W1 : FArr S64x16) (b1 : FArr S16)
    (W2 : FArr S16x8) (b2 : FArr S8) (W3 : FArr S8x8) (b3 : FArr S8) (W4 : FArr S8x4) (b4 : FArr S4) : FArr S100000x4 :=
  Cert.Spec.biasRelu (agg4 s d n (Cert.Spec.lin
    (Cert.Spec.biasRelu (agg8 s d n (Cert.Spec.lin
      (Cert.Spec.biasRelu (agg8 s d n (Cert.Spec.lin
        (Cert.Spec.biasRelu (agg16 s d n (Cert.Spec.lin x W1)) (row16 b1)) W2)) (row8 b2)) W3)) (row8 b3)) W4)) (row4 b4)

/-- The network: the graph's quantities from the edge list and weights, then the four layers. -/
def net (x : FArr S100000x64) (ei : IArr S2x3200000) (ew : FArr S3200000) (W1 : FArr S64x16) (b1 : FArr S16)
    (W2 : FArr S16x8) (b2 : FArr S8) (W3 : FArr S8x8) (b3 : FArr S8) (W4 : FArr S8x4) (b4 : FArr S4) : FArr S100000x4 :=
  layers (srcIdx ei) (dstIdx ei) (coef (srcIdx ei) (dstIdx ei) (ewFull ew)) x W1 b1 W2 b2 W3 b3 W4 b4

end Cert.Net

end
-- ==== Proof.LibConcatPieces.lean ====
/-
  Concatenations with their pieces as plain arguments.

  A concatenation takes its pieces as a list of (shape, contents) pairs, and the fact that the shapes fit is a
  statement about that list. So a piece's contents cannot be rewritten in place: rewriting inside the list changes the
  term the fitting fact is typed over. `cat2` and `cat3` are the concatenations of two and of three pieces with the
  shapes, the fitting fact and then the contents as plain arguments; `cat2_intro` and `cat3_intro` restate a
  concatenation of a literal list that way, by definition. With the two restating lemmas applied BEFORE a rewriting
  pass descends into a term (in a simp set: `↓cat2_intro`, `↓cat3_intro`), a pass that evaluates a line of host
  operations one result at a time goes on inside the pieces, where it otherwise stops. `concat2_congr` and
  `concat3_congr` are the congruence facts for the list form: a concatenation depends only on its pieces.
-/
import Idealize.ShloMosaic.PureOps.ShapeOps

noncomputable section

namespace Cert.LibConcatPieces

open Idealize.ShloMosaic

/-- The concatenation of two pieces along axis `a`. -/
def cat2 {α : Type} (t : Shape) (a : Fin t.rank) (s1 s2 : Shape) (h : Shape.Concatenates [s1, s2] t a)
    (u0 : s1.Idx → α) (u1 : s2.Idx → α) : t.Idx → α :=
  concatenate t a [⟨s1, u0⟩, ⟨s2, u1⟩] h

theorem cat2_intro {α : Type} (t : Shape) (a : Fin t.rank) (s1 s2 : Shape) (h : Shape.Concatenates [s1, s2] t a)
    (u0 : s1.Idx → α) (u1 : s2.Idx → α) : concatenate t a [⟨s1, u0⟩, ⟨s2, u1⟩] h = cat2 t a s1 s2 h u0 u1 := rfl

/-- The concatenation of three pieces along axis `a`. -/
def cat3 {α : Type} (t : Shape) (a : Fin t.rank) (s1 s2 s3 : Shape) (h : Shape.Concatenates [s1, s2, s3] t a)
    (u0 : s1.Idx → α) (u1 : s2.Idx → α) (u2 : s3.Idx → α) : t.Idx → α :=
  concatenate t a [⟨s1, u0⟩, ⟨s2, u1⟩, ⟨s3, u2⟩] h

theorem cat3_intro {α : Type} (t : Shape) (a : Fin t.rank) (s1 s2 s3 : Shape) (h : Shape.Concatenates [s1, s2, s3] t a)
    (u0 : s1.Idx → α) (u1 : s2.Idx → α) (u2 : s3.Idx → α) :
    concatenate t a [⟨s1, u0⟩, ⟨s2, u1⟩, ⟨s3, u2⟩] h = cat3 t a s1 s2 s3 h u0 u1 u2 := rfl

/-- A concatenation of two pieces depends only on the two pieces. -/
theorem concat2_congr {α : Type} (t : Shape) (a : Fin t.rank) (s1 s2 : Shape)
    (u0 A : s1.Idx → α) (u1 B : s2.Idx → α)
    (h : Shape.Concatenates [s1, s2] t a) (e0 : u0 = A) (e1 : u1 = B) :
    concatenate t a [⟨s1, u0⟩, ⟨s2, u1⟩] h = concatenate t a [⟨s1, A⟩, ⟨s2, B⟩] h := by
  subst e0 e1; rfl

/-- A concatenation of three pieces depends only on the three pieces. -/
theorem concat3_congr {α : Type} (t : Shape) (a : Fin t.rank) (s1 s2 s3 : Shape)
    (u0 A : s1.Idx → α) (u1 B : s2.Idx → α) (u2 C : s3.Idx → α)
    (h : Shape.Concatenates [s1, s2, s3] t a) (e0 : u0 = A) (e1 : u1 = B) (e2 : u2 = C) :
    concatenate t a [⟨s1, u0⟩, ⟨s2, u1⟩, ⟨s3, u2⟩] h = concatenate t a [⟨s1, A⟩, ⟨s2, B⟩, ⟨s3, C⟩] h := by
  subst e0 e1 e2; rfl

end Cert.LibConcatPieces

end
-- ==== Proof.KernelStages.lean ====
/-
  The contents of the kernel program's buffers at the boundaries between its host stretches and its grid regions,
  read as the network's quantities.

  The program runs: a first host stretch that builds, from the edge list and the edge weights, the messages' sources,
  targets and coefficients; then four times a grid region (the matrix product), a host stretch (gather, scale,
  sum into the targets, and the bias as a row) and a grid region (bias and the cut at zero).  No later step writes the
  sources, the targets, the coefficients or an argument, so each is read at any later boundary as it stood after the
  first stretch; each host stretch's result is the aggregation of the array the preceding region left.
-/
import proofs.«165093_j63015760166990_1_alg».proof.Proof.Gen.KernelIdeal.Frame
import proofs.«165093_j63015760166990_1_alg».proof.Proof.Net
import Idealize.ShloMosaic.Lib.StableHlo.Run
import proofs.«165093_j63015760166990_1_alg».proof.Proof.LibConcatPieces

set_option maxRecDepth 16384

noncomputable section

namespace Cert.KernelIdeal.Stages

open Cert.KernelIdeal Cert.KernelIdeal.Gen Cert.Net
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## A buffer a region does not use as a window's array is as the region found it -/

theorem keep4 (b : Ref sig .tc) (hb : ∀ w, Pipeline.arrRef spec0 w ≠ b) :
    W4 m ρ c (no_index (Proc.devRef .tc b)) = W3 m ρ c (Proc.devRef .tc b) := W4_of_ne m ρ c b hb
theorem keep6 (b : Ref sig .tc) (hb : ∀ w, Pipeline.arrRef spec1 w ≠ b) :
    W6 m ρ c (no_index (Proc.devRef .tc b)) = W5 m ρ c (Proc.devRef .tc b) := W6_of_ne m ρ c b hb
theorem keep7 (b : Ref sig .tc) (hb : ∀ w, Pipeline.arrRef spec2 w ≠ b) :
    W7 m ρ c (no_index (Proc.devRef .tc b)) = W6 m ρ c (Proc.devRef .tc b) := W7_of_ne m ρ c b hb
theorem keep9 (b : Ref sig .tc) (hb : ∀ w, Pipeline.arrRef spec3 w ≠ b) :
    W9 m ρ c (no_index (Proc.devRef .tc b)) = W8 m ρ c (Proc.devRef .tc b) := W9_of_ne m ρ c b hb
theorem keep10 (b : Ref sig .tc) (hb : ∀ w, Pipeline.arrRef spec4 w ≠ b) :
    W10 m ρ c (no_index (Proc.devRef .tc b)) = W9 m ρ c (Proc.devRef .tc b) := W10_of_ne m ρ c b hb
theorem keep12 (b : Ref sig .tc) (hb : ∀ w, Pipeline.arrRef spec5 w ≠ b) :
    W12 m ρ c (no_index (Proc.devRef .tc b)) = W11 m ρ c (Proc.devRef .tc b) := W12_of_ne m ρ c b hb
theorem keep13 (b : Ref sig .tc) (hb : ∀ w, Pipeline.arrRef spec6 w ≠ b) :
    W13 m ρ c (no_index (Proc.devRef .tc b)) = W12 m ρ c (Proc.devRef .tc b) := W13_of_ne m ρ c b hb

/-- Reads a buffer back to the launch memory: through the regions that do not use it (`keepK`), through the host
    operations that do not write it, and through the operation that wrote it to that operation's operands. -/
macro "read_back" : tactic =>
  `(tactic| (simp (disch := decide) only [↓Cert.LibConcatPieces.cat2_intro, keep4, keep6, keep7, keep9, keep10, keep12, keep13,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

/-! ## The first stretch: sources, targets, coefficients; and the arguments, at every boundary where they are read -/

theorem src_at4 : W4 m ρ c (Proc.devRef .tc main_v5) = srcIdx (m ((c : Thread nD τ).loc main_arg1)) := by
  read_back <;> rfl
theorem dst_at4 : W4 m ρ c (Proc.devRef .tc main_v6) = dstIdx (m ((c : Thread nD τ).loc main_arg1)) := by
  read_back <;> rfl

theorem src_at7 : W7 m ρ c (Proc.devRef .tc main_v5) = srcIdx (m ((c : Thread nD τ).loc main_arg1)) := by
  read_back <;> rfl
theorem dst_at7 : W7 m ρ c (Proc.devRef .tc main_v6) = dstIdx (m ((c : Thread nD τ).loc main_arg1)) := by
  read_back <;> rfl

theorem src_at10 : W10 m ρ c (Proc.devRef .tc main_v5) = srcIdx (m ((c : Thread nD τ).loc main_arg1)) := by
  read_back <;> rfl
theorem dst_at10 : W10 m ρ c (Proc.devRef .tc main_v6) = dstIdx (m ((c : Thread nD τ).loc main_arg1)) := by
  read_back <;> rfl

theorem src_at13 : W13 m ρ c (Proc.devRef .tc main_v5) = srcIdx (m ((c : Thread nD τ).loc main_arg1)) := by
  read_back <;> rfl
theorem dst_at13 : W13 m ρ c (Proc.devRef .tc main_v6) = dstIdx (m ((c : Thread nD τ).loc main_arg1)) := by
  read_back <;> rfl

theorem arg0_at3 : W3 m ρ c (Proc.devRef .tc main_arg0) = m ((c : Thread nD τ).loc main_arg0) := by
  read_back <;> rfl

theorem arg3_at3 : W3 m ρ c (Proc.devRef .tc main_arg3) = m ((c : Thread nD τ).loc main_arg3) := by
  read_back <;> rfl

theorem arg4_at4 : W4 m ρ c (Proc.devRef .tc main_arg4) = m ((c : Thread nD τ).loc main_arg4) := by
  read_back <;> rfl

theorem arg5_at6 : W6 m ρ c (Proc.devRef .tc main_arg5) = m ((c : Thread nD τ).loc main_arg5) := by
  read_back <;> rfl

theorem arg6_at7 : W7 m ρ c (Proc.devRef .tc main_arg6) = m ((c : Thread nD τ).loc main_arg6) := by
  read_back <;> rfl

theorem arg7_at9 : W9 m ρ c (Proc.devRef .tc main_arg7) = m ((c : Thread nD τ).loc main_arg7) := by
  read_back <;> rfl

theorem arg8_at10 : W10 m ρ c (Proc.devRef .tc main_arg8) = m ((c : Thread nD τ).loc main_arg8) := by
  read_back <;> rfl

theorem arg9_at12 : W12 m ρ c (Proc.devRef .tc main_arg9) = m ((c : Thread nD τ).loc main_arg9) := by
  read_back <;> rfl

theorem arg10_at13 : W13 m ρ c (Proc.devRef .tc main_arg10) = m ((c : Thread nD τ).loc main_arg10) := by
  read_back <;> rfl

/-! ## The coefficients, stretch by stretch, from ANY contents `X` at the stretch's start

Read from a variable valuation, each stretch's results are small terms of the contents it starts from. -/

section Stretch

variable (X : Valuation τ sig (Elt Ideal))

theorem first_src : StableHlo.after hostOps0 X (Proc.devRef .tc main_v5) = srcIdx (X (Proc.devRef .tc main_arg1)) := by
  read_back <;> rfl
theorem first_dst : StableHlo.after hostOps0 X (Proc.devRef .tc main_v6) = dstIdx (X (Proc.devRef .tc main_arg1)) := by
  read_back <;> rfl
theorem first_ew : StableHlo.after hostOps0 X (Proc.devRef .tc main_v8) = ewFull (X (Proc.devRef .tc main_arg2)) := by
  read_back <;> rfl
theorem first_pos : StableHlo.after hostOps0 X (Proc.devRef .tc main_v13)
    = cmpf (F := Ideal) .ogt (deg (dstIdx (X (Proc.devRef .tc main_arg1))) (ewFull (X (Proc.devRef .tc main_arg2))))
        (broadcastInDim S100000 ![] bcast_S_S100000 (constant (F := Ideal) S_ .f32 0x00000000#32)) := by
  read_back <;> rfl
theorem first_rsqrt : StableHlo.after hostOps0 X (Proc.devRef .tc main_v14)
    = Host.rsqrt (F := Ideal) (deg (dstIdx (X (Proc.devRef .tc main_arg1))) (ewFull (X (Proc.devRef .tc main_arg2)))) := by
  read_back <;> rfl
theorem first_zero : StableHlo.after hostOps0 X (Proc.devRef .tc main_cst_2) = constant (F := Ideal) S_ .f32 0x00000000#32 := by
  read_back <;> rfl

/-- The select between the inverse square root and zero. -/
theorem second_dinv : StableHlo.after hostOps0_1 X (Proc.devRef .tc main_v15)
    = select (X (Proc.devRef .tc main_v13)) (X (Proc.devRef .tc main_v14)) (broadcastInDim S100000 ![] bcast_S_S100000 (id (X (Proc.devRef .tc main_cst_2)))) := by
  read_back <;> rfl
theorem second_src : StableHlo.after hostOps0_1 X (Proc.devRef .tc main_v5) = X (Proc.devRef .tc main_v5) := by
  read_back
theorem second_dst : StableHlo.after hostOps0_1 X (Proc.devRef .tc main_v6) = X (Proc.devRef .tc main_v6) := by
  read_back
theorem second_ew : StableHlo.after hostOps0_1 X (Proc.devRef .tc main_v8) = X (Proc.devRef .tc main_v8) := by
  read_back

theorem third_coef : StableHlo.after hostOps0_2 X (Proc.devRef .tc main_v31)
    = mulf (F := Ideal) (mulf (F := Ideal) (atNodes (X (Proc.devRef .tc main_v15)) (X (Proc.devRef .tc main_v5))) (X (Proc.devRef .tc main_v8)))
        (atNodes (X (Proc.devRef .tc main_v15)) (X (Proc.devRef .tc main_v6))) := by
  read_back <;> rfl

theorem fourth_keep : StableHlo.after hostOps1 X (Proc.devRef .tc main_v31) = X (Proc.devRef .tc main_v31) := by
  read_back
theorem sixth_keep : StableHlo.after hostOps3 X (Proc.devRef .tc main_v31) = X (Proc.devRef .tc main_v31) := by
  read_back
theorem eighth_keep : StableHlo.after hostOps5 X (Proc.devRef .tc main_v31) = X (Proc.devRef .tc main_v31) := by
  read_back

end Stretch

/-- After the first three stretches the coefficients' buffer holds `coef` of the sources, targets and weights. -/
theorem coef_at3 : W3 m ρ c (Proc.devRef .tc main_v31) = coef (srcIdx (m ((c : Thread nD τ).loc main_arg1))) (dstIdx (m ((c : Thread nD τ).loc main_arg1))) (ewFull (m ((c : Thread nD τ).loc main_arg2))) := by
  have e5 : W2 m ρ c (Proc.devRef .tc main_v5) = srcIdx (m ((c : Thread nD τ).loc main_arg1)) := (second_src (W1 m ρ c)).trans (first_src (W0 m ρ c))
  have e6 : W2 m ρ c (Proc.devRef .tc main_v6) = dstIdx (m ((c : Thread nD τ).loc main_arg1)) := (second_dst (W1 m ρ c)).trans (first_dst (W0 m ρ c))
  have e8 : W2 m ρ c (Proc.devRef .tc main_v8) = ewFull (m ((c : Thread nD τ).loc main_arg2)) := (second_ew (W1 m ρ c)).trans (first_ew (W0 m ρ c))
  have e15 : W2 m ρ c (Proc.devRef .tc main_v15) = dinv (deg (dstIdx (m ((c : Thread nD τ).loc main_arg1))) (ewFull (m ((c : Thread nD τ).loc main_arg2)))) := by
    have p13 : W1 m ρ c (Proc.devRef .tc main_v13) = _ := first_pos (W0 m ρ c)
    have p14 : W1 m ρ c (Proc.devRef .tc main_v14) = _ := first_rsqrt (W0 m ρ c)
    have pz : W1 m ρ c (Proc.devRef .tc main_cst_2) = _ := first_zero (W0 m ρ c)
    refine (second_dinv (W1 m ρ c)).trans ?_
    rw [p13, p14, pz]
    rfl
  refine (third_coef (W2 m ρ c)).trans ?_
  rw [e5, e6, e8, e15]
  rfl

theorem coef_at4 : W4 m ρ c (Proc.devRef .tc main_v31) = coef (srcIdx (m ((c : Thread nD τ).loc main_arg1))) (dstIdx (m ((c : Thread nD τ).loc main_arg1))) (ewFull (m ((c : Thread nD τ).loc main_arg2))) :=
  (W4_of_ne m ρ c main_v31 (by decide)).trans (coef_at3 m ρ c)
theorem coef_at7 : W7 m ρ c (Proc.devRef .tc main_v31) = coef (srcIdx (m ((c : Thread nD τ).loc main_arg1))) (dstIdx (m ((c : Thread nD τ).loc main_arg1))) (ewFull (m ((c : Thread nD τ).loc main_arg2))) :=
  (W7_of_ne m ρ c main_v31 (by decide)).trans ((W6_of_ne m ρ c main_v31 (by decide)).trans
    ((fourth_keep (W4 m ρ c)).trans (coef_at4 m ρ c)))
theorem coef_at10 : W10 m ρ c (Proc.devRef .tc main_v31) = coef (srcIdx (m ((c : Thread nD τ).loc main_arg1))) (dstIdx (m ((c : Thread nD τ).loc main_arg1))) (ewFull (m ((c : Thread nD τ).loc main_arg2))) :=
  (W10_of_ne m ρ c main_v31 (by decide)).trans ((W9_of_ne m ρ c main_v31 (by decide)).trans
    ((sixth_keep (W7 m ρ c)).trans (coef_at7 m ρ c)))
theorem coef_at13 : W13 m ρ c (Proc.devRef .tc main_v31) = coef (srcIdx (m ((c : Thread nD τ).loc main_arg1))) (dstIdx (m ((c : Thread nD τ).loc main_arg1))) (ewFull (m ((c : Thread nD τ).loc main_arg2))) :=
  (W13_of_ne m ρ c main_v31 (by decide)).trans ((W12_of_ne m ρ c main_v31 (by decide)).trans
    ((eighth_keep (W10 m ρ c)).trans (coef_at10 m ρ c)))

/-! ## Each later host stretch: the aggregation of the preceding product, and the bias as a row -/

theorem agg_at5 : W5 m ρ c (Proc.devRef .tc main_v45) = agg16 (srcIdx (m ((c : Thread nD τ).loc main_arg1))) (dstIdx (m ((c : Thread nD τ).loc main_arg1))) (coef (srcIdx (m ((c : Thread nD τ).loc main_arg1))) (dstIdx (m ((c : Thread nD τ).loc main_arg1))) (ewFull (m ((c : Thread nD τ).loc main_arg2)))) (W4 m ρ c (Proc.devRef .tc main_v32)) := by
  rw [← coef_at4 m ρ c, ← src_at4 m ρ c, ← dst_at4 m ρ c]
  show StableHlo.after hostOps1 (W4 m ρ c) (Proc.devRef .tc main_v45) = _
  after_results_simp <;> rfl
theorem row_at5 : W5 m ρ c (Proc.devRef .tc main_v46) = row16 (m ((c : Thread nD τ).loc main_arg4)) := by
  rw [← arg4_at4 m ρ c]
  show StableHlo.after hostOps1 (W4 m ρ c) (Proc.devRef .tc main_v46) = _
  after_results_simp <;> rfl

theorem agg_at8 : W8 m ρ c (Proc.devRef .tc main_v61) = agg8 (srcIdx (m ((c : Thread nD τ).loc main_arg1))) (dstIdx (m ((c : Thread nD τ).loc main_arg1))) (coef (srcIdx (m ((c : Thread nD τ).loc main_arg1))) (dstIdx (m ((c : Thread nD τ).loc main_arg1))) (ewFull (m ((c : Thread nD τ).loc main_arg2)))) (W7 m ρ c (Proc.devRef .tc main_v48)) := by
  rw [← coef_at7 m ρ c, ← src_at7 m ρ c, ← dst_at7 m ρ c]
  show StableHlo.after hostOps3 (W7 m ρ c) (Proc.devRef .tc main_v61) = _
  after_results_simp <;> rfl
theorem row_at8 : W8 m ρ c (Proc.devRef .tc main_v62) = row8 (m ((c : Thread nD τ).loc main_arg6)) := by
  rw [← arg6_at7 m ρ c]
  show StableHlo.after hostOps3 (W7 m ρ c) (Proc.devRef .tc main_v62) = _
  after_results_simp <;> rfl

theorem agg_at11 : W11 m ρ c (Proc.devRef .tc main_v77) = agg8 (srcIdx (m ((c : Thread nD τ).loc main_arg1))) (dstIdx (m ((c : Thread nD τ).loc main_arg1))) (coef (srcIdx (m ((c : Thread nD τ).loc main_arg1))) (dstIdx (m ((c : Thread nD τ).loc main_arg1))) (ewFull (m ((c : Thread nD τ).loc main_arg2)))) (W10 m ρ c (Proc.devRef .tc main_v64)) := by
  rw [← coef_at10 m ρ c, ← src_at10 m ρ c, ← dst_at10 m ρ c]
  show StableHlo.after hostOps5 (W10 m ρ c) (Proc.devRef .tc main_v77) = _
  after_results_simp <;> rfl
theorem row_at11 : W11 m ρ c (Proc.devRef .tc main_v78) = row8 (m ((c : Thread nD τ).loc main_arg8)) := by
  rw [← arg8_at10 m ρ c]
  show StableHlo.after hostOps5 (W10 m ρ c) (Proc.devRef .tc main_v78) = _
  after_results_simp <;> rfl

theorem agg_at14 : W14 m ρ c (Proc.devRef .tc main_v93) = agg4 (srcIdx (m ((c : Thread nD τ).loc main_arg1))) (dstIdx (m ((c : Thread nD τ).loc main_arg1))) (coef (srcIdx (m ((c : Thread nD τ).loc main_arg1))) (dstIdx (m ((c : Thread nD τ).loc main_arg1))) (ewFull (m ((c : Thread nD τ).loc main_arg2)))) (W13 m ρ c (Proc.devRef .tc main_v80)) := by
  rw [← coef_at13 m ρ c, ← src_at13 m ρ c, ← dst_at13 m ρ c]
  show StableHlo.after hostOps7 (W13 m ρ c) (Proc.devRef .tc main_v93) = _
  after_results_simp <;> rfl
theorem row_at14 : W14 m ρ c (Proc.devRef .tc main_v94) = row4 (m ((c : Thread nD τ).loc main_arg10)) := by
  rw [← arg10_at13 m ρ c]
  show StableHlo.after hostOps7 (W13 m ρ c) (Proc.devRef .tc main_v94) = _
  after_results_simp <;> rfl

end Cert.KernelIdeal.Stages

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.Lin0.lean ====
/-
  The first linear layer, as one array.

  The layer's program visits the 100000 rows of its input in 50 blocks of 2000 rows. At each block it multiplies the
  block (2000 × 64) by the whole weight array (64 × 16), accumulating into zeros, and writes the 2000 × 16 product back
  as the matching block of rows of the output. Over the extended reals a change of float format is the identity, so an
  entry of one block's product is a sum over the contracted coordinate of products of entries; read at the rows the
  block occupies, this is the entry of the product of the whole input array by the weight array. The 50 blocks tile the
  output, so after the last block the output array is that product.
-/
import proofs.«165093_j63015760166990_1_alg».proof.Proof.Gen.KernelIdeal.Frame
import proofs.«165093_j63015760166990_1_alg».proof.Proof.Spec
import proofs.«165093_j63015760166990_1_alg».proof.Proof.LibMatmulIx
import Idealize.ShloMosaic.Lib.Pipeline.Value
import Idealize.ShloMosaic.Lib.ValueIdx

-- membership of an index in a block of rows of a 100000-row array
set_option maxRecDepth 16384

noncomputable section

open scoped BigOperators

namespace Cert.KernelIdeal.Lin0

open Cert.KernelIdeal Cert.KernelIdeal.Gen Idealize.ShloMosaic Idealize.ShloMosaic.TcCoe Idealize.SL.Sem
open Idealize.ShloMosaic.Pipeline (Dat)
open Idealize.ShloMosaic.ValueIdx

/-- The body reads and writes its buffers whole: every access starts at row 0, column 0. -/
theorem origin : (![0, 0] : Fin 2 → Nat) = fun _ => 0 := funext fun a => by fin_cases a <;> rfl

/-- One block's product at entry `(p, q)`: the sum over the 64 contracted coordinates of the products of the
    block's entry in row `p` and the weight's entry in column `q`. Both format changes are the identity. -/
theorem product_apply (x0 : Vec Ideal S2000x64 .f32) (x1 : Vec Ideal S64x16 .f32) (p : Fin 2000) (q : Fin 16) :
    k0_pay1 (F := Ideal) x0 x1 (ix2 p q) = ∑ c : Fin 64, x0 (ix2 p c) * x1 (ix2 c q) := by
  unfold k0_pay1
  exact Cert.LibMatmulIx.matmul_zero_apply dot_S2000x64_S64x16_S2000x16_1_0_0_1_n_n.wf none _ _ p q

/-- Where the three windows sit at point `t`: the input's and the output's blocks are block `t` of rows and the
    only block of columns; the weight array is one block. -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the product of the whole input array by the weight array. -/
theorem flushed_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (Cert.Spec.lin (V c main_arg0) (V c main_arg3)) := by
  show (cfg0.win 2).cut (grid0.coords t) ((dat0 V c).after 2 t) = _
  rw [after0_2]
  unfold out0_2
  rw [View.canon_unit_zero origin]
  simp only [View.ld_unit_zero (S := S2000x64) origin, View.ld_unit_zero (S := S64x16) origin]
  obtain ⟨e0, e1, e2, e3, e4, e5⟩ := block_indices t
  funext j
  obtain ⟨p, q, rfl⟩ : ∃ (p : Fin 2000) (q : Fin 16), j = ix2 p q := ⟨j 0, j 1, eq_ix2 j⟩
  show k0_pay1 (F := Ideal) (iblk0 V c 0 t) (iblk0 V c 1 t) (ix2 p q)
    = Cert.Spec.lin (V c main_arg0) (V c main_arg3) (((cfg0.win 2).blk t).view.emb (ix2 p q))
  refine (product_apply (iblk0 V c 0 t) (iblk0 V c 1 t) p q).trans ?_
  unfold Cert.Spec.lin
  refine Finset.sum_congr rfl fun k _ => ?_
  -- the block's row p is row 2000 t + p of the array; the columns are the array's
  have ha : iblk0 V c 0 t (ix2 p k)
      = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ =>
      show win0_0.index t (0 : Fin 2) * 2000 + 1 * p.val = win0_2.index t (0 : Fin 2) * 2000 + 1 * p.val
      omega
    | ⟨1, _⟩ =>
      show win0_0.index t (1 : Fin 2) * 64 + 1 * k.val = k.val
      omega
  -- the weight array is read whole
  have hb : iblk0 V c 1 t (ix2 k q)
      = V c main_arg3 (ix2 k ((((cfg0.win 2).blk t).view.emb (ix2 p q)) 1)) := by
    show V c main_arg3 (((cfg0.win 1).blk t).view.emb (ix2 k q)) = _
    refine congrArg (V c main_arg3) (funext fun a => Fin.ext ?_)
    match a with
    | ⟨0, _⟩ =>
      show win0_1.index t (0 : Fin 2) * 64 + 1 * k.val = k.val
      omega
    | ⟨1, _⟩ =>
      show win0_1.index t (1 : Fin 2) * 16 + 1 * q.val = win0_2.index t (1 : Fin 2) * 16 + 1 * q.val
      omega
  exact congrArg₂ (· * ·) ha hb

/-- An index of the output array is in point `t`'s block iff each coordinate is in the block's range on its axis. -/
theorem mem_blk (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v32).slice (win0_2.rect t)).set ↔ _
  rw [View.set_slice_whole, Rect.mem_set_unit]
  exact Iff.rfl

/-- The 50 blocks of 2000 rows tile the 100000 rows: row `r` is in the block of point `r / 2000`. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 50 := N_0
  have ht : (i 0).val / 2000 < cfg0.N := by
    show (i 0).val / 2000 < grid0.N
    rw [hN]; omega
  obtain ⟨-, -, -, -, e4, e5⟩ := block_indices ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, ht⟩ (1 : Fin 2) * 16 ≤ (i 1).val
      ∧ (i 1).val < win0_2.index ⟨(i 0).val / 2000, ht⟩ (1 : Fin 2) * 16 + 16
    rw [e5]
    omega

/-- After the last point the layer's output array is the product of its input array by its weight array. -/
theorem final (V : (c : Dev nD) → (b : Ref sig .tc) → Buf (Elt Ideal) ((c : Thread nD τ).loc b)) (c : Dev nD) :
    (dat0 (F := Ideal) V c).arrAt 2 cfg0.N = Cert.Spec.lin (V c main_arg0) (V c main_arg3) :=
  (dat0 V c).arrAt_eq_of_cover 2 (Cert.Spec.lin (V c main_arg0) (V c main_arg3)) (fun t _ => flushed_eq V c t) cover

end Cert.KernelIdeal.Lin0

end
-- ==== Proof.Lin2.lean ====
/-
  The second linear layer, as one array.

  The layer's program visits the 100000 rows of its input in 50 blocks of 2000 rows. At each block it multiplies the
  block (2000 × 16) by the whole weight array (16 × 8), accumulating into zeros, and writes the 2000 × 8 product back
  as the matching block of rows of the output. Over the extended reals a change of float format is the identity, so an
  entry of one block's product is a sum over the contracted coordinate of products of entries; read at the rows the
  block occupies, this is the entry of the product of the whole input array by the weight array. The 50 blocks tile the
  output, so after the last block the output array is that product.
-/
import proofs.«165093_j63015760166990_1_alg».proof.Proof.Gen.KernelIdeal.Frame
import proofs.«165093_j63015760166990_1_alg».proof.Proof.Spec
import proofs.«165093_j63015760166990_1_alg».proof.Proof.LibMatmulIx
import Idealize.ShloMosaic.Lib.Pipeline.Value
import Idealize.ShloMosaic.Lib.ValueIdx

-- membership of an index in a block of rows of a 100000-row array
set_option maxRecDepth 16384

noncomputable section

open scoped BigOperators

namespace Cert.KernelIdeal.Lin2

open Cert.KernelIdeal Cert.KernelIdeal.Gen Idealize.ShloMosaic Idealize.ShloMosaic.TcCoe Idealize.SL.Sem
open Idealize.ShloMosaic.Pipeline (Dat)
open Idealize.ShloMosaic.ValueIdx

/-- The body reads and writes its buffers whole: every access starts at row 0, column 0. -/
theorem origin : (![0, 0] : Fin 2 → Nat) = fun _ => 0 := funext fun a => by fin_cases a <;> rfl

/-- One block's product at entry `(p, q)`: the sum over the 16 contracted coordinates of the products of the
    block's entry in row `p` and the weight's entry in column `q`. Both format changes are the identity. The body first casts the block to its own shape, which changes nothing. -/
theorem product_apply (x0 : Vec Ideal S2000x16 .f32) (x1 : Vec Ideal S16x8 .f32) (p : Fin 2000) (q : Fin 8) :
    k2_pay1 (F := Ideal) x0 x1 (ix2 p q) = ∑ c : Fin 16, x0 (ix2 p c) * x1 (ix2 c q) := by
  unfold k2_pay1
  simp only [shapeCast_self]
  exact Cert.LibMatmulIx.matmul_zero_apply dot_S2000x16_S16x8_S2000x8_1_0_0_1_n_n.wf none _ _ p q

/-- Where the three windows sit at point `t`: the input's and the output's blocks are block `t` of rows and the
    only block of columns; the weight array is one block. -/
theorem block_indices : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is block `t` of the product of the whole input array by the weight array. -/
theorem flushed_eq (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal) (Cert.Spec.lin (V c main_v47) (V c main_arg5)) := by
  show (cfg2.win 2).cut (grid2.coords t) ((dat2 V c).after 2 t) = _
  rw [after2_2]
  unfold out2_2
  rw [View.canon_unit_zero origin]
  simp only [View.ld_unit_zero (S := S2000x16) origin, View.ld_unit_zero (S := S16x8) origin]
  obtain ⟨e0, e1, e2, e3, e4, e5⟩ := block_indices t
  funext j
  obtain ⟨p, q, rfl⟩ : ∃ (p : Fin 2000) (q : Fin 8), j = ix2 p q := ⟨j 0, j 1, eq_ix2 j⟩
  show k2_pay1 (F := Ideal) (iblk2 V c 0 t) (iblk2 V c 1 t) (ix2 p q)
    = Cert.Spec.lin (V c main_v47) (V c main_arg5) (((cfg2.win 2).blk t).view.emb (ix2 p q))
  refine (product_apply (iblk2 V c 0 t) (iblk2 V c 1 t) p q).trans ?_
  unfold Cert.Spec.lin
  refine Finset.sum_congr rfl fun k _ => ?_
  -- the block's row p is row 2000 t + p of the array; the columns are the array's
  have ha : iblk2 V c 0 t (ix2 p k)
      = V c main_v47 (ix2 ((((cfg2.win 2).blk t).view.emb (ix2 p q)) 0) k) := by
    show V c main_v47 (((cfg2.win 0).blk t).view.emb (ix2 p k)) = _
    refine congrArg (V c main_v47) (funext fun a => Fin.ext ?_)
    match a with
    | ⟨0, _⟩ =>
      show win2_0.index t (0 : Fin 2) * 2000 + 1 * p.val = win2_2.index t (0 : Fin 2) * 2000 + 1 * p.val
      omega
    | ⟨1, _⟩ =>
      show win2_0.index t (1 : Fin 2) * 16 + 1 * k.val = k.val
      omega
  -- the weight array is read whole
  have hb : iblk2 V c 1 t (ix2 k q)
      = V c main_arg5 (ix2 k ((((cfg2.win 2).blk t).view.emb (ix2 p q)) 1)) := by
    show V c main_arg5 (((cfg2.win 1).blk t).view.emb (ix2 k q)) = _
    refine congrArg (V c main_arg5) (funext fun a => Fin.ext ?_)
    match a with
    | ⟨0, _⟩ =>
      show win2_1.index t (0 : Fin 2) * 16 + 1 * k.val = k.val
      omega
    | ⟨1, _⟩ =>
      show win2_1.index t (1 : Fin 2) * 8 + 1 * q.val = win2_2.index t (1 : Fin 2) * 8 + 1 * q.val
      omega
  exact congrArg₂ (· * ·) ha hb

/-- An index of the output array is in point `t`'s block iff each coordinate is in the block's range on its axis. -/
theorem mem_blk (t : Fin cfg2.N) (i : S100000x8.Idx) :
    i ∈ ((cfg2.win 2).blk t).view.set ↔ ∀ a : Fin 2, win2_2.index t a * S2000x8.size a ≤ (i a).val
      ∧ (i a).val < win2_2.index t a * S2000x8.size a + S2000x8.size a := by
  show i ∈ ((View.whole main_v48).slice (win2_2.rect t)).set ↔ _
  rw [View.set_slice_whole, Rect.mem_set_unit]
  exact Iff.rfl

/-- The 50 blocks of 2000 rows tile the 100000 rows: row `r` is in the block of point `r / 2000`. -/
theorem cover (i : S100000x8.Idx) :
    ∃ t : Fin cfg2.N, (cfg2.win 2).flush t = true ∧ i ∈ ((cfg2.win 2).blk t).view.set := by
  have hi0 : (i 0).val < 100000 := (i 0).isLt
  have hi1 : (i 1).val < 8 := (i 1).isLt
  have hN : grid2.N = 50 := N_2
  have ht : (i 0).val / 2000 < cfg2.N := by
    show (i 0).val / 2000 < grid2.N
    rw [hN]; omega
  obtain ⟨-, -, -, -, e4, e5⟩ := block_indices ⟨(i 0).val / 2000, ht⟩
  refine ⟨⟨(i 0).val / 2000, ht⟩, flush2_2 _, ?_⟩
  rw [mem_blk]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win2_2.index ⟨(i 0).val / 2000, ht⟩ (1 : Fin 2) * 8 ≤ (i 1).val
      ∧ (i 1).val < win2_2.index ⟨(i 0).val / 2000, ht⟩ (1 : Fin 2) * 8 + 8
    rw [e5]
    omega

/-- After the last point the layer's output array is the product of its input array by its weight array. -/
theorem final (V : (c : Dev nD) → (b : Ref sig .tc) → Buf (Elt Ideal) ((c : Thread nD τ).loc b)) (c : Dev nD) :
    (dat2 (F := Ideal) V c).arrAt 2 cfg2.N = Cert.Spec.lin (V c main_v47) (V c main_arg5) :=
  (dat2 V c).arrAt_eq_of_cover 2 (Cert.Spec.lin (V c main_v47) (V c main_arg5)) (fun t _ => flushed_eq V c t) cover

end Cert.KernelIdeal.Lin2

end
-- ==== Proof.Lin4.lean ====
/-
  The third linear layer, as one array.

  The layer's program visits the 100000 rows of its input in 50 blocks of 2000 rows. At each block it multiplies the
  block (2000 × 8) by the whole weight array (8 × 8), accumulating into zeros, and writes the 2000 × 8 product back
  as the matching block of rows of the output. Over the extended reals a change of float format is the identity, so an
  entry of one block's product is a sum over the contracted coordinate of products of entries; read at the rows the
  block occupies, this is the entry of the product of the whole input array by the weight array. The 50 blocks tile the
  output, so after the last block the output array is that product.
-/
import proofs.«165093_j63015760166990_1_alg».proof.Proof.Gen.KernelIdeal.Frame
import proofs.«165093_j63015760166990_1_alg».proof.Proof.Spec
import proofs.«165093_j63015760166990_1_alg».proof.Proof.LibMatmulIx
import Idealize.ShloMosaic.Lib.Pipeline.Value
import Idealize.ShloMosaic.Lib.ValueIdx

-- membership of an index in a block of rows of a 100000-row array
set_option maxRecDepth 16384

noncomputable section

open scoped BigOperators

namespace Cert.KernelIdeal.Lin4

open Cert.KernelIdeal Cert.KernelIdeal.Gen Idealize.ShloMosaic Idealize.ShloMosaic.TcCoe Idealize.SL.Sem
open Idealize.ShloMosaic.Pipeline (Dat)
open Idealize.ShloMosaic.ValueIdx

/-- The body reads and writes its buffers whole: every access starts at row 0, column 0. -/
theorem origin : (![0, 0] : Fin 2 → Nat) = fun _ => 0 := funext fun a => by fin_cases a <;> rfl

/-- One block's product at entry `(p, q)`: the sum over the 8 contracted coordinates of the products of the
    block's entry in row `p` and the weight's entry in column `q`. Both format changes are the identity. The body first casts the block to its own shape, which changes nothing. -/
theorem product_apply (x0 : Vec Ideal S2000x8 .f32) (x1 : Vec Ideal S8x8 .f32) (p : Fin 2000) (q : Fin 8) :
    k4_pay1 (F := Ideal) x0 x1 (ix2 p q) = ∑ c : Fin 8, x0 (ix2 p c) * x1 (ix2 c q) := by
  unfold k4_pay1
  simp only [shapeCast_self]
  exact Cert.LibMatmulIx.matmul_zero_apply dot_S2000x8_S8x8_S2000x8_1_0_0_1_n_n.wf none _ _ p q

/-- Where the three windows sit at point `t`: the input's and the output's blocks are block `t` of rows and the
    only block of columns; the weight array is one block. -/
theorem block_indices : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point `t` writes back is block `t` of the product of the whole input array by the weight array. -/
theorem flushed_eq (V : (c : Dev nD) → (b : Ref sig .tc) → Buf (Elt Ideal) ((c : Thread nD τ).loc b)) (c : Dev nD)
    (t : Fin cfg4.N) :
    (dat4 (F := Ideal) V c).flushed 2 t
      = ((cfg4.win 2).blk t).view.read (Elt Ideal) (Cert.Spec.lin (V c main_v63) (V c main_arg7)) := by
  show (cfg4.win 2).cut (grid4.coords t) ((dat4 V c).after 2 t) = _
  rw [after4_2]
  unfold out4_2
  rw [View.canon_unit_zero origin]
  simp only [View.ld_unit_zero (S := S2000x8) origin, View.ld_unit_zero (S := S8x8) origin]
  obtain ⟨e0, e1, e2, e3, e4, e5⟩ := block_indices t
  funext j
  obtain ⟨p, q, rfl⟩ : ∃ (p : Fin 2000) (q : Fin 8), j = ix2 p q := ⟨j 0, j 1, eq_ix2 j⟩
  show k4_pay1 (F := Ideal) (iblk4 V c 0 t) (iblk4 V c 1 t) (ix2 p q)
    = Cert.Spec.lin (V c main_v63) (V c main_arg7) (((cfg4.win 2).blk t).view.emb (ix2 p q))
  refine (product_apply (iblk4 V c 0 t) (iblk4 V c 1 t) p q).trans ?_
  unfold Cert.Spec.lin
  refine Finset.sum_congr rfl fun k _ => ?_
  -- the block's row p is row 2000 t + p of the array; the columns are the array's
  have ha : iblk4 V c 0 t (ix2 p k)
      = V c main_v63 (ix2 ((((cfg4.win 2).blk t).view.emb (ix2 p q)) 0) k) := by
    show V c main_v63 (((cfg4.win 0).blk t).view.emb (ix2 p k)) = _
    refine congrArg (V c main_v63) (funext fun a => Fin.ext ?_)
    match a with
    | ⟨0, _⟩ =>
      show win4_0.index t (0 : Fin 2) * 2000 + 1 * p.val = win4_2.index t (0 : Fin 2) * 2000 + 1 * p.val
      omega
    | ⟨1, _⟩ =>
      show win4_0.index t (1 : Fin 2) * 8 + 1 * k.val = k.val
      omega
  -- the weight array is read whole
  have hb : iblk4 V c 1 t (ix2 k q)
      = V c main_arg7 (ix2 k ((((cfg4.win 2).blk t).view.emb (ix2 p q)) 1)) := by
    show V c main_arg7 (((cfg4.win 1).blk t).view.emb (ix2 k q)) = _
    refine congrArg (V c main_arg7) (funext fun a => Fin.ext ?_)
    match a with
    | ⟨0, _⟩ =>
      show win4_1.index t (0 : Fin 2) * 8 + 1 * k.val = k.val
      omega
    | ⟨1, _⟩ =>
      show win4_1.index t (1 : Fin 2) * 8 + 1 * q.val = win4_2.index t (1 : Fin 2) * 8 + 1 * q.val
      omega
  exact congrArg₂ (· * ·) ha hb

/-- An index of the output array is in point `t`'s block iff each coordinate is in the block's range on its axis. -/
theorem mem_blk (t : Fin cfg4.N) (i : S100000x8.Idx) :
    i ∈ ((cfg4.win 2).blk t).view.set ↔ ∀ a : Fin 2, win4_2.index t a * S2000x8.size a ≤ (i a).val
      ∧ (i a).val < win4_2.index t a * S2000x8.size a + S2000x8.size a := by
  show i ∈ ((View.whole main_v64).slice (win4_2.rect t)).set ↔ _
  rw [View.set_slice_whole, Rect.mem_set_unit]
  exact Iff.rfl

/-- The 50 blocks of 2000 rows tile the 100000 rows: row `r` is in the block of point `r / 2000`. -/
theorem cover (i : S100000x8.Idx) :
    ∃ t : Fin cfg4.N, (cfg4.win 2).flush t = true ∧ i ∈ ((cfg4.win 2).blk t).view.set := by
  have hi0 : (i 0).val < 100000 := (i 0).isLt
  have hi1 : (i 1).val < 8 := (i 1).isLt
  have hN : grid4.N = 50 := N_4
  have ht : (i 0).val / 2000 < cfg4.N := by
    show (i 0).val / 2000 < grid4.N
    rw [hN]; omega
  obtain ⟨-, -, -, -, e4, e5⟩ := block_indices ⟨(i 0).val / 2000, ht⟩
  refine ⟨⟨(i 0).val / 2000, ht⟩, flush4_2 _, ?_⟩
  rw [mem_blk]
  intro a
  match a with
  | ⟨0, _⟩ =>
    show win4_2.index ⟨(i 0).val / 2000, ht⟩ (0 : Fin 2) * 2000 ≤ (i 0).val
      ∧ (i 0).val < win4_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win4_2.index ⟨(i 0).val / 2000, ht⟩ (1 : Fin 2) * 8 ≤ (i 1).val
      ∧ (i 1).val < win4_2.index ⟨(i 0).val / 2000, ht⟩ (1 : Fin 2) * 8 + 8
    rw [e5]
    omega

/-- After the last point the layer's output array is the product of its input array by its weight array. -/
theorem final (V : (c : Dev nD) → (b : Ref sig .tc) → Buf (Elt Ideal) ((c : Thread nD τ).loc b)) (c : Dev nD) :
    (dat4 (F := Ideal) V c).arrAt 2 cfg4.N = Cert.Spec.lin (V c main_v63) (V c main_arg7) :=
  (dat4 V c).arrAt_eq_of_cover 2 (Cert.Spec.lin (V c main_v63) (V c main_arg7)) (fun t _ => flushed_eq V c t) cover

end Cert.KernelIdeal.Lin4

end
-- ==== Proof.Lin6.lean ====
/-
  The fourth linear layer, as one array.

  The layer's program visits the 100000 rows of its input in 50 blocks of 2000 rows. At each block it multiplies the
  block (2000 × 8) by the whole weight array (8 × 4), accumulating into zeros, and writes the 2000 × 4 product back
  as the matching block of rows of the output. Over the extended reals a change of float format is the identity, so an
  entry of one block's product is a sum over the contracted coordinate of products of entries; read at the rows the
  block occupies, this is the entry of the product of the whole input array by the weight array. The 50 blocks tile the
  output, so after the last block the output array is that product.
-/
import proofs.«165093_j63015760166990_1_alg».proof.Proof.Gen.KernelIdeal.Frame
import proofs.«165093_j63015760166990_1_alg».proof.Proof.Spec
import proofs.«165093_j63015760166990_1_alg».proof.Proof.LibMatmulIx
import Idealize.ShloMosaic.Lib.Pipeline.Value
import Idealize.ShloMosaic.Lib.ValueIdx

-- membership of an index in a block of rows of a 100000-row array
set_option maxRecDepth 16384

noncomputable section

open scoped BigOperators

namespace Cert.KernelIdeal.Lin6

open Cert.KernelIdeal Cert.KernelIdeal.Gen Idealize.ShloMosaic Idealize.ShloMosaic.TcCoe Idealize.SL.Sem
open Idealize.ShloMosaic.Pipeline (Dat)
open Idealize.ShloMosaic.ValueIdx

/-- The body reads and writes its buffers whole: every access starts at row 0, column 0. -/
theorem origin : (![0, 0] : Fin 2 → Nat) = fun _ => 0 := funext fun a => by fin_cases a <;> rfl

/-- One block's product at entry `(p, q)`: the sum over the 8 contracted coordinates of the products of the
    block's entry in row `p` and the weight's entry in column `q`. Both format changes are the identity. The body first casts the block to its own shape, which changes nothing. -/
theorem product_apply (x0 : Vec Ideal S2000x8 .f32) (x1 : Vec Ideal S8x4 .f32) (p : Fin 2000) (q : Fin 4) :
    k6_pay1 (F := Ideal) x0 x1 (ix2 p q) = ∑ c : Fin 8, x0 (ix2 p c) * x1 (ix2 c q) := by
  unfold k6_pay1
  simp only [shapeCast_self]
  exact Cert.LibMatmulIx.matmul_zero_apply dot_S2000x8_S8x4_S2000x4_1_0_0_1_n_n.wf none _ _ p q

/-- Where the three windows sit at point `t`: the input's and the output's blocks are block `t` of rows and the
    only block of columns; the weight array is one block. -/
theorem block_indices : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- What point `t` writes back is block `t` of the product of the whole input array by the weight array. -/
theorem flushed_eq (V : (c : Dev nD) → (b : Ref sig .tc) → Buf (Elt Ideal) ((c : Thread nD τ).loc b)) (c : Dev nD)
    (t : Fin cfg6.N) :
    (dat6 (F := Ideal) V c).flushed 2 t
      = ((cfg6.win 2).blk t).view.read (Elt Ideal) (Cert.Spec.lin (V c main_v79) (V c main_arg9)) := by
  show (cfg6.win 2).cut (grid6.coords t) ((dat6 V c).after 2 t) = _
  rw [after6_2]
  unfold out6_2
  rw [View.canon_unit_zero origin]
  simp only [View.ld_unit_zero (S := S2000x8) origin, View.ld_unit_zero (S := S8x4) origin]
  obtain ⟨e0, e1, e2, e3, e4, e5⟩ := block_indices t
  funext j
  obtain ⟨p, q, rfl⟩ : ∃ (p : Fin 2000) (q : Fin 4), j = ix2 p q := ⟨j 0, j 1, eq_ix2 j⟩
  show k6_pay1 (F := Ideal) (iblk6 V c 0 t) (iblk6 V c 1 t) (ix2 p q)
    = Cert.Spec.lin (V c main_v79) (V c main_arg9) (((cfg6.win 2).blk t).view.emb (ix2 p q))
  refine (product_apply (iblk6 V c 0 t) (iblk6 V c 1 t) p q).trans ?_
  unfold Cert.Spec.lin
  refine Finset.sum_congr rfl fun k _ => ?_
  -- the block's row p is row 2000 t + p of the array; the columns are the array's
  have ha : iblk6 V c 0 t (ix2 p k)
      = V c main_v79 (ix2 ((((cfg6.win 2).blk t).view.emb (ix2 p q)) 0) k) := by
    show V c main_v79 (((cfg6.win 0).blk t).view.emb (ix2 p k)) = _
    refine congrArg (V c main_v79) (funext fun a => Fin.ext ?_)
    match a with
    | ⟨0, _⟩ =>
      show win6_0.index t (0 : Fin 2) * 2000 + 1 * p.val = win6_2.index t (0 : Fin 2) * 2000 + 1 * p.val
      omega
    | ⟨1, _⟩ =>
      show win6_0.index t (1 : Fin 2) * 8 + 1 * k.val = k.val
      omega
  -- the weight array is read whole
  have hb : iblk6 V c 1 t (ix2 k q)
      = V c main_arg9 (ix2 k ((((cfg6.win 2).blk t).view.emb (ix2 p q)) 1)) := by
    show V c main_arg9 (((cfg6.win 1).blk t).view.emb (ix2 k q)) = _
    refine congrArg (V c main_arg9) (funext fun a => Fin.ext ?_)
    match a with
    | ⟨0, _⟩ =>
      show win6_1.index t (0 : Fin 2) * 8 + 1 * k.val = k.val
      omega
    | ⟨1, _⟩ =>
      show win6_1.index t (1 : Fin 2) * 4 + 1 * q.val = win6_2.index t (1 : Fin 2) * 4 + 1 * q.val
      omega
  exact congrArg₂ (· * ·) ha hb

/-- An index of the output array is in point `t`'s block iff each coordinate is in the block's range on its axis. -/
theorem mem_blk (t : Fin cfg6.N) (i : S100000x4.Idx) :
    i ∈ ((cfg6.win 2).blk t).view.set ↔ ∀ a : Fin 2, win6_2.index t a * S2000x4.size a ≤ (i a).val
      ∧ (i a).val < win6_2.index t a * S2000x4.size a + S2000x4.size a := by
  show i ∈ ((View.whole main_v80).slice (win6_2.rect t)).set ↔ _
  rw [View.set_slice_whole, Rect.mem_set_unit]
  exact Iff.rfl

/-- The 50 blocks of 2000 rows tile the 100000 rows: row `r` is in the block of point `r / 2000`. -/
theorem cover (i : S100000x4.Idx) :
    ∃ t : Fin cfg6.N, (cfg6.win 2).flush t = true ∧ i ∈ ((cfg6.win 2).blk t).view.set := by
  have hi0 : (i 0).val < 100000 := (i 0).isLt
  have hi1 : (i 1).val < 4 := (i 1).isLt
  have hN : grid6.N = 50 := N_6
  have ht : (i 0).val / 2000 < cfg6.N := by
    show (i 0).val / 2000 < grid6.N
    rw [hN]; omega
  obtain ⟨-, -, -, -, e4, e5⟩ := block_indices ⟨(i 0).val / 2000, ht⟩
  refine ⟨⟨(i 0).val / 2000, ht⟩, flush6_2 _, ?_⟩
  rw [mem_blk]
  intro a
  match a with
  | ⟨0, _⟩ =>
    show win6_2.index ⟨(i 0).val / 2000, ht⟩ (0 : Fin 2) * 2000 ≤ (i 0).val
      ∧ (i 0).val < win6_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win6_2.index ⟨(i 0).val / 2000, ht⟩ (1 : Fin 2) * 4 ≤ (i 1).val
      ∧ (i 1).val < win6_2.index ⟨(i 0).val / 2000, ht⟩ (1 : Fin 2) * 4 + 4
    rw [e5]
    omega

/-- After the last point the layer's output array is the product of its input array by its weight array. -/
theorem final (V : (c : Dev nD) → (b : Ref sig .tc) → Buf (Elt Ideal) ((c : Thread nD τ).loc b)) (c : Dev nD) :
    (dat6 (F := Ideal) V c).arrAt 2 cfg6.N = Cert.Spec.lin (V c main_v79) (V c main_arg9) :=
  (dat6 V c).arrAt_eq_of_cover 2 (Cert.Spec.lin (V c main_v79) (V c main_arg9)) (fun t _ => flushed_eq V c t) cover

end Cert.KernelIdeal.Lin6

end
-- ==== Proof.Relu1.lean ====
/-
  One bias-and-maximum layer of the network, read as a function of whole arrays over the extended reals.

  The layer walks a grid of 50 points; point `t` takes rows `2000 t … 2000 t + 1999` of the `100000 × 16` input array
  and the whole `1 × 16` row vector, and writes back the same rows of the output array holding, at row `p` and
  column `q` of the block, `max (x (2000 t + p, q) + r (0, q)) 0`.  The 50 row blocks tile the output array, so the
  array ends holding `max (x i + r (0, i₁)) 0` at every index `i`: the function `Cert.Spec.biasRelu` of the two inputs.
-/
import proofs.«165093_j63015760166990_1_alg».proof.Proof.Gen.KernelIdeal.Frame
import proofs.«165093_j63015760166990_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Relu1

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-buffer access, as the constant function. -/
theorem zero_offsets : (![0, 0] : Fin 2 → Nat) = fun _ => 0 := funext fun a => by fin_cases a <;> rfl

/-- The body's stored value at row `p`, column `q` of a block: the block's entry plus the row vector's entry in
    column `q`, then the maximum with zero. -/
theorem payload_apply (x0 : Vec Ideal S2000x16 .f32) (x1 : Vec Ideal S1x16 .f32) (p : Fin 2000) (q : Fin 16) :
    k1_pay1 (F := Ideal) x0 x1 (ix2 p q) = max (x0 (ix2 p q) + x1 (ix2 (0 : Fin 1) q)) 0 := by
  unfold k1_pay1
  rw [maximumf_apply, addf_apply, broadcast_apply, shapeCast_self, shapeCast_self, broadcastTo_1b_ab_apply]
  show max _ (Ideal.ofBits .f32 0x00000000#32) = _
  rw [Ideal.ofBits_zero_f32]

/-- The target function at an index `i`, from where its two reads fall: the array at `i` itself, the row vector in
    `i`'s column. -/
theorem biasRelu_at (A : S100000x16.Idx → EReal) (r : S1x16.Idx → EReal) (i0 i : S100000x16.Idx) (i1 : S1x16.Idx)
    (h0 : i0 = i) (h1 : i1 = ix2 (0 : Fin 1) (i 1)) : max (A i0 + r i1) 0 = Cert.Spec.biasRelu A r i := by
  subst h0 h1; rfl

/-- The block index maps over the grid: the input's row block moves with the output's, which is the grid point itself;
    every column block index, and the row vector's block index, is zero. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

variable (V : (c : Dev nD) → (b : Ref sig .tc) → Buf (Elt Ideal) ((c : Thread nD τ).loc b))

/-- What grid point `t` writes back is block `t` of the bias-and-maximum of the two input arrays. -/
theorem flushed_eq (c : Dev nD) (t : Fin cfg1.N) :
    (dat1 (F := Ideal) V c).flushed 2 t
      = ((cfg1.win 2).blk t).view.read (Elt Ideal) (Cert.Spec.biasRelu (V c main_v45) (V c main_v46)) := by
  show (cfg1.win 2).cut (grid1.coords t) ((dat1 V c).after 2 t) = _
  rw [after1_2]
  unfold out1_2
  rw [View.canon_unit_zero zero_offsets]
  simp only [View.ld_unit_zero (S := S2000x16) zero_offsets, View.ld_unit_zero (S := S1x16) zero_offsets]
  obtain ⟨e0, e1, e2, e3, e4, e5⟩ := idx_facts t
  funext j
  obtain ⟨p, q, rfl⟩ : ∃ (p : Fin 2000) (q : Fin 16), j = ix2 p q := ⟨j 0, j 1, eq_ix2 j⟩
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 16 + 1 * q.val = win1_2.index t (1 : Fin 2) * 16 + 1 * q.val; omega
  have h1 : ((cfg1.win 1).blk t).view.emb (ix2 (0 : Fin 1) q)
      = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 16 + 1 * q.val = win1_2.index t (1 : Fin 2) * 16 + 1 * q.val; omega
  exact (payload_apply _ _ p q).trans (biasRelu_at (V c main_v45) (V c main_v46) _ _ _ h0 h1)

/-- An index of the output array is in point `t`'s block iff each coordinate is in the block's range on its axis. -/
theorem mem_blk (t : Fin cfg1.N) (i : S100000x16.Idx) :
    i ∈ ((cfg1.win 2).blk t).view.set ↔ ∀ a : Fin 2, win1_2.index t a * S2000x16.size a ≤ (i a).val
      ∧ (i a).val < win1_2.index t a * S2000x16.size a + S2000x16.size a := by
  show i ∈ ((View.whole main_v47).slice (win1_2.rect t)).set ↔ _
  rw [View.set_slice_whole, Rect.mem_set_unit]
  exact Iff.rfl

/-- Every index of the output array is in some point's block: row `r` is in the block of point `r / 2000`. -/
theorem cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 50 := N_1
  have ht : (i 0).val / 2000 < cfg1.N := by rw [hN]; omega
  obtain ⟨-, -, -, -, e4, e5⟩ := idx_facts ⟨(i 0).val / 2000, ht⟩
  refine ⟨⟨(i 0).val / 2000, ht⟩, flush1_2 _, ?_⟩
  rw [mem_blk]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win1_2.index ⟨(i 0).val / 2000, ht⟩ (1 : Fin 2) * 16 ≤ (i 1).val
      ∧ (i 1).val < win1_2.index ⟨(i 0).val / 2000, ht⟩ (1 : Fin 2) * 16 + 16
    rw [e5]
    omega

/-- The output array after the region: the bias-and-maximum of the two input arrays as the region finds them. -/
theorem final (c : Dev nD) :
    (dat1 (F := Ideal) V c).arrAt 2 cfg1.N = Cert.Spec.biasRelu (V c main_v45) (V c main_v46) :=
  (dat1 V c).arrAt_eq_of_cover 2 _ (fun t _ => flushed_eq V c t) cover

end Cert.KernelIdeal.Relu1

end
-- ==== Proof.Relu3.lean ====
/-
  One bias-and-maximum layer of the network, read as a function of whole arrays over the extended reals.

  The layer walks a grid of 50 points; point `t` takes rows `2000 t … 2000 t + 1999` of the `100000 × 8` input array
  and the whole `1 × 8` row vector, and writes back the same rows of the output array holding, at row `p` and
  column `q` of the block, `max (x (2000 t + p, q) + r (0, q)) 0`.  The 50 row blocks tile the output array, so the
  array ends holding `max (x i + r (0, i₁)) 0` at every index `i`: the function `Cert.Spec.biasRelu` of the two inputs.
-/
import proofs.«165093_j63015760166990_1_alg».proof.Proof.Gen.KernelIdeal.Frame
import proofs.«165093_j63015760166990_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Relu3

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-buffer access, as the constant function. -/
theorem zero_offsets : (![0, 0] : Fin 2 → Nat) = fun _ => 0 := funext fun a => by fin_cases a <;> rfl

/-- The body's stored value at row `p`, column `q` of a block: the block's entry plus the row vector's entry in
    column `q`, then the maximum with zero. -/
theorem payload_apply (x0 : Vec Ideal S2000x8 .f32) (x1 : Vec Ideal S1x8 .f32) (p : Fin 2000) (q : Fin 8) :
    k3_pay1 (F := Ideal) x0 x1 (ix2 p q) = max (x0 (ix2 p q) + x1 (ix2 (0 : Fin 1) q)) 0 := by
  unfold k3_pay1
  rw [maximumf_apply, addf_apply, broadcast_apply, shapeCast_self, shapeCast_self, broadcastTo_1b_ab_apply]
  show max _ (Ideal.ofBits .f32 0x00000000#32) = _
  rw [Ideal.ofBits_zero_f32]

/-- The target function at an index `i`, from where its two reads fall: the array at `i` itself, the row vector in
    `i`'s column. -/
theorem biasRelu_at (A : S100000x8.Idx → EReal) (r : S1x8.Idx → EReal) (i0 i : S100000x8.Idx) (i1 : S1x8.Idx)
    (h0 : i0 = i) (h1 : i1 = ix2 (0 : Fin 1) (i 1)) : max (A i0 + r i1) 0 = Cert.Spec.biasRelu A r i := by
  subst h0 h1; rfl

/-- The block index maps over the grid: the input's row block moves with the output's, which is the grid point itself;
    every column block index, and the row vector's block index, is zero. -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

variable (V : (c : Dev nD) → (b : Ref sig .tc) → Buf (Elt Ideal) ((c : Thread nD τ).loc b))

/-- What grid point `t` writes back is block `t` of the bias-and-maximum of the two input arrays. -/
theorem flushed_eq (c : Dev nD) (t : Fin cfg3.N) :
    (dat3 (F := Ideal) V c).flushed 2 t
      = ((cfg3.win 2).blk t).view.read (Elt Ideal) (Cert.Spec.biasRelu (V c main_v61) (V c main_v62)) := by
  show (cfg3.win 2).cut (grid3.coords t) ((dat3 V c).after 2 t) = _
  rw [after3_2]
  unfold out3_2
  rw [View.canon_unit_zero zero_offsets]
  simp only [View.ld_unit_zero (S := S2000x8) zero_offsets, View.ld_unit_zero (S := S1x8) zero_offsets]
  obtain ⟨e0, e1, e2, e3, e4, e5⟩ := idx_facts t
  funext j
  obtain ⟨p, q, rfl⟩ : ∃ (p : Fin 2000) (q : Fin 8), j = ix2 p q := ⟨j 0, j 1, eq_ix2 j⟩
  have h0 : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 8 + 1 * q.val = win3_2.index t (1 : Fin 2) * 8 + 1 * q.val; omega
  have h1 : ((cfg3.win 1).blk t).view.emb (ix2 (0 : Fin 1) q)
      = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 8 + 1 * q.val = win3_2.index t (1 : Fin 2) * 8 + 1 * q.val; omega
  exact (payload_apply _ _ p q).trans (biasRelu_at (V c main_v61) (V c main_v62) _ _ _ h0 h1)

/-- An index of the output array is in point `t`'s block iff each coordinate is in the block's range on its axis. -/
theorem mem_blk (t : Fin cfg3.N) (i : S100000x8.Idx) :
    i ∈ ((cfg3.win 2).blk t).view.set ↔ ∀ a : Fin 2, win3_2.index t a * S2000x8.size a ≤ (i a).val
      ∧ (i a).val < win3_2.index t a * S2000x8.size a + S2000x8.size a := by
  show i ∈ ((View.whole main_v63).slice (win3_2.rect t)).set ↔ _
  rw [View.set_slice_whole, Rect.mem_set_unit]
  exact Iff.rfl

/-- Every index of the output array is in some point's block: row `r` is in the block of point `r / 2000`. -/
theorem cover (i : S100000x8.Idx) :
    ∃ t : Fin cfg3.N, (cfg3.win 2).flush t = true ∧ i ∈ ((cfg3.win 2).blk t).view.set := by
  have hi0 : (i 0).val < 100000 := (i 0).isLt
  have hi1 : (i 1).val < 8 := (i 1).isLt
  have hN : cfg3.N = 50 := N_3
  have ht : (i 0).val / 2000 < cfg3.N := by rw [hN]; omega
  obtain ⟨-, -, -, -, e4, e5⟩ := idx_facts ⟨(i 0).val / 2000, ht⟩
  refine ⟨⟨(i 0).val / 2000, ht⟩, flush3_2 _, ?_⟩
  rw [mem_blk]
  intro a
  match a with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win3_2.index ⟨(i 0).val / 2000, ht⟩ (1 : Fin 2) * 8 ≤ (i 1).val
      ∧ (i 1).val < win3_2.index ⟨(i 0).val / 2000, ht⟩ (1 : Fin 2) * 8 + 8
    rw [e5]
    omega

/-- The output array after the region: the bias-and-maximum of the two input arrays as the region finds them. -/
theorem final (c : Dev nD) :
    (dat3 (F := Ideal) V c).arrAt 2 cfg3.N = Cert.Spec.biasRelu (V c main_v61) (V c main_v62) :=
  (dat3 V c).arrAt_eq_of_cover 2 _ (fun t _ => flushed_eq V c t) cover

end Cert.KernelIdeal.Relu3

end
-- ==== Proof.Relu5.lean ====
/-
  One bias-and-maximum layer of the network, read as a function of whole arrays over the extended reals.

  The layer walks a grid of 50 points; point `t` takes rows `2000 t … 2000 t + 1999` of the `100000 × 8` input array
  and the whole `1 × 8` row vector, and writes back the same rows of the output array holding, at row `p` and
  column `q` of the block, `max (x (2000 t + p, q) + r (0, q)) 0`.  The 50 row blocks tile the output array, so the
  array ends holding `max (x i + r (0, i₁)) 0` at every index `i`: the function `Cert.Spec.biasRelu` of the two inputs.
-/
import proofs.«165093_j63015760166990_1_alg».proof.Proof.Gen.KernelIdeal.Frame
import proofs.«165093_j63015760166990_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Relu5

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-buffer access, as the constant function. -/
theorem zero_offsets : (![0, 0] : Fin 2 → Nat) = fun _ => 0 := funext fun a => by fin_cases a <;> rfl

/-- The body's stored value at row `p`, column `q` of a block: the block's entry plus the row vector's entry in
    column `q`, then the maximum with zero. -/
theorem payload_apply (x0 : Vec Ideal S2000x8 .f32) (x1 : Vec Ideal S1x8 .f32) (p : Fin 2000) (q : Fin 8) :
    k5_pay1 (F := Ideal) x0 x1 (ix2 p q) = max (x0 (ix2 p q) + x1 (ix2 (0 : Fin 1) q)) 0 := by
  unfold k5_pay1
  rw [maximumf_apply, addf_apply, broadcast_apply, shapeCast_self, shapeCast_self, broadcastTo_1b_ab_apply]
  show max _ (Ideal.ofBits .f32 0x00000000#32) = _
  rw [Ideal.ofBits_zero_f32]

/-- The target function at an index `i`, from where its two reads fall: the array at `i` itself, the row vector in
    `i`'s column. -/
theorem biasRelu_at (A : S100000x8.Idx → EReal) (r : S1x8.Idx → EReal) (i0 i : S100000x8.Idx) (i1 : S1x8.Idx)
    (h0 : i0 = i) (h1 : i1 = ix2 (0 : Fin 1) (i 1)) : max (A i0 + r i1) 0 = Cert.Spec.biasRelu A r i := by
  subst h0 h1; rfl

/-- The block index maps over the grid: the input's row block moves with the output's, which is the grid point itself;
    every column block index, and the row vector's block index, is zero. -/
theorem idx_facts : ∀ t : Fin cfg5.N, win5_0.index t (0 : Fin 2) = win5_2.index t (0 : Fin 2)
    ∧ win5_0.index t (1 : Fin 2) = win5_2.index t (1 : Fin 2)
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

variable (V : (c : Dev nD) → (b : Ref sig .tc) → Buf (Elt Ideal) ((c : Thread nD τ).loc b))

/-- What grid point `t` writes back is block `t` of the bias-and-maximum of the two input arrays. -/
theorem flushed_eq (c : Dev nD) (t : Fin cfg5.N) :
    (dat5 (F := Ideal) V c).flushed 2 t
      = ((cfg5.win 2).blk t).view.read (Elt Ideal) (Cert.Spec.biasRelu (V c main_v77) (V c main_v78)) := by
  show (cfg5.win 2).cut (grid5.coords t) ((dat5 V c).after 2 t) = _
  rw [after5_2]
  unfold out5_2
  rw [View.canon_unit_zero zero_offsets]
  simp only [View.ld_unit_zero (S := S2000x8) zero_offsets, View.ld_unit_zero (S := S1x8) zero_offsets]
  obtain ⟨e0, e1, e2, e3, e4, e5⟩ := idx_facts t
  funext j
  obtain ⟨p, q, rfl⟩ : ∃ (p : Fin 2000) (q : Fin 8), j = ix2 p q := ⟨j 0, j 1, eq_ix2 j⟩
  have h0 : ((cfg5.win 0).blk t).view.emb (ix2 p q) = ((cfg5.win 2).blk t).view.emb (ix2 p q) := by
    funext a; apply Fin.ext
    match a with
    | ⟨0, _⟩ => show win5_0.index t (0 : Fin 2) * 2000 + 1 * p.val = win5_2.index t (0 : Fin 2) * 2000 + 1 * p.val; omega
    | ⟨1, _⟩ => show win5_0.index t (1 : Fin 2) * 8 + 1 * q.val = win5_2.index t (1 : Fin 2) * 8 + 1 * q.val; omega
  have h1 : ((cfg5.win 1).blk t).view.emb (ix2 (0 : Fin 1) q)
      = ix2 (0 : Fin 1) ((((cfg5.win 2).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 8 + 1 * q.val = win5_2.index t (1 : Fin 2) * 8 + 1 * q.val; omega
  exact (payload_apply _ _ p q).trans (biasRelu_at (V c main_v77) (V c main_v78) _ _ _ h0 h1)

/-- An index of the output array is in point `t`'s block iff each coordinate is in the block's range on its axis. -/
theorem mem_blk (t : Fin cfg5.N) (i : S100000x8.Idx) :
    i ∈ ((cfg5.win 2).blk t).view.set ↔ ∀ a : Fin 2, win5_2.index t a * S2000x8.size a ≤ (i a).val
      ∧ (i a).val < win5_2.index t a * S2000x8.size a + S2000x8.size a := by
  show i ∈ ((View.whole main_v79).slice (win5_2.rect t)).set ↔ _
  rw [View.set_slice_whole, Rect.mem_set_unit]
  exact Iff.rfl

/-- Every index of the output array is in some point's block: row `r` is in the block of point `r / 2000`. -/
theorem cover (i : S100000x8.Idx) :
    ∃ t : Fin cfg5.N, (cfg5.win 2).flush t = true ∧ i ∈ ((cfg5.win 2).blk t).view.set := by
  have hi0 : (i 0).val < 100000 := (i 0).isLt
  have hi1 : (i 1).val < 8 := (i 1).isLt
  have hN : cfg5.N = 50 := N_5
  have ht : (i 0).val / 2000 < cfg5.N := by rw [hN]; omega
  obtain ⟨-, -, -, -, e4, e5⟩ := idx_facts ⟨(i 0).val / 2000, ht⟩
  refine ⟨⟨(i 0).val / 2000, ht⟩, flush5_2 _, ?_⟩
  rw [mem_blk]
  intro a
  match a with
  | ⟨0, _⟩ =>
    show win5_2.index ⟨(i 0).val / 2000, ht⟩ (0 : Fin 2) * 2000 ≤ (i 0).val
      ∧ (i 0).val < win5_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win5_2.index ⟨(i 0).val / 2000, ht⟩ (1 : Fin 2) * 8 ≤ (i 1).val
      ∧ (i 1).val < win5_2.index ⟨(i 0).val / 2000, ht⟩ (1 : Fin 2) * 8 + 8
    rw [e5]
    omega

/-- The output array after the region: the bias-and-maximum of the two input arrays as the region finds them. -/
theorem final (c : Dev nD) :
    (dat5 (F := Ideal) V c).arrAt 2 cfg5.N = Cert.Spec.biasRelu (V c main_v77) (V c main_v78) :=
  (dat5 V c).arrAt_eq_of_cover 2 _ (fun t _ => flushed_eq V c t) cover

end Cert.KernelIdeal.Relu5

end
-- ==== Proof.Relu7.lean ====
/-
  One bias-and-maximum layer of the network, read as a function of whole arrays over the extended reals.

  The layer walks a grid of 50 points; point `t` takes rows `2000 t … 2000 t + 1999` of the `100000 × 4` input array
  and the whole `1 × 4` row vector, and writes back the same rows of the output array holding, at row `p` and
  column `q` of the block, `max (x (2000 t + p, q) + r (0, q)) 0`.  The 50 row blocks tile the output array, so the
  array ends holding `max (x i + r (0, i₁)) 0` at every index `i`: the function `Cert.Spec.biasRelu` of the two inputs.
-/
import proofs.«165093_j63015760166990_1_alg».proof.Proof.Gen.KernelIdeal.Frame
import proofs.«165093_j63015760166990_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Relu7

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-buffer access, as the constant function. -/
theorem zero_offsets : (![0, 0] : Fin 2 → Nat) = fun _ => 0 := funext fun a => by fin_cases a <;> rfl

/-- The body's stored value at row `p`, column `q` of a block: the block's entry plus the row vector's entry in
    column `q`, then the maximum with zero. -/
theorem payload_apply (x0 : Vec Ideal S2000x4 .f32) (x1 : Vec Ideal S1x4 .f32) (p : Fin 2000) (q : Fin 4) :
    k7_pay1 (F := Ideal) x0 x1 (ix2 p q) = max (x0 (ix2 p q) + x1 (ix2 (0 : Fin 1) q)) 0 := by
  unfold k7_pay1
  rw [maximumf_apply, addf_apply, broadcast_apply, shapeCast_self, shapeCast_self, broadcastTo_1b_ab_apply]
  show max _ (Ideal.ofBits .f32 0x00000000#32) = _
  rw [Ideal.ofBits_zero_f32]

/-- The target function at an index `i`, from where its two reads fall: the array at `i` itself, the row vector in
    `i`'s column. -/
theorem biasRelu_at (A : S100000x4.Idx → EReal) (r : S1x4.Idx → EReal) (i0 i : S100000x4.Idx) (i1 : S1x4.Idx)
    (h0 : i0 = i) (h1 : i1 = ix2 (0 : Fin 1) (i 1)) : max (A i0 + r i1) 0 = Cert.Spec.biasRelu A r i := by
  subst h0 h1; rfl

/-- The block index maps over the grid: the input's row block moves with the output's, which is the grid point itself;
    every column block index, and the row vector's block index, is zero. -/
theorem idx_facts : ∀ t : Fin cfg7.N, win7_0.index t (0 : Fin 2) = win7_2.index t (0 : Fin 2)
    ∧ win7_0.index t (1 : Fin 2) = win7_2.index t (1 : Fin 2)
    ∧ win7_1.index t (0 : Fin 2) = 0
    ∧ win7_1.index t (1 : Fin 2) = 0
    ∧ win7_2.index t (0 : Fin 2) = t.val
    ∧ win7_2.index t (1 : Fin 2) = 0 :=
  (by decide +kernel : ∀ t : Fin grid7.N, _)

variable (V : (c : Dev nD) → (b : Ref sig .tc) → Buf (Elt Ideal) ((c : Thread nD τ).loc b))

/-- What grid point `t` writes back is block `t` of the bias-and-maximum of the two input arrays. -/
theorem flushed_eq (c : Dev nD) (t : Fin cfg7.N) :
    (dat7 (F := Ideal) V c).flushed 2 t
      = ((cfg7.win 2).blk t).view.read (Elt Ideal) (Cert.Spec.biasRelu (V c main_v93) (V c main_v94)) := by
  show (cfg7.win 2).cut (grid7.coords t) ((dat7 V c).after 2 t) = _
  rw [after7_2]
  unfold out7_2
  rw [View.canon_unit_zero zero_offsets]
  simp only [View.ld_unit_zero (S := S2000x4) zero_offsets, View.ld_unit_zero (S := S1x4) zero_offsets]
  obtain ⟨e0, e1, e2, e3, e4, e5⟩ := idx_facts t
  funext j
  obtain ⟨p, q, rfl⟩ : ∃ (p : Fin 2000) (q : Fin 4), j = ix2 p q := ⟨j 0, j 1, eq_ix2 j⟩
  have h0 : ((cfg7.win 0).blk t).view.emb (ix2 p q) = ((cfg7.win 2).blk t).view.emb (ix2 p q) := by
    funext a; apply Fin.ext
    match a with
    | ⟨0, _⟩ => show win7_0.index t (0 : Fin 2) * 2000 + 1 * p.val = win7_2.index t (0 : Fin 2) * 2000 + 1 * p.val; omega
    | ⟨1, _⟩ => show win7_0.index t (1 : Fin 2) * 4 + 1 * q.val = win7_2.index t (1 : Fin 2) * 4 + 1 * q.val; omega
  have h1 : ((cfg7.win 1).blk t).view.emb (ix2 (0 : Fin 1) q)
      = ix2 (0 : Fin 1) ((((cfg7.win 2).blk t).view.emb (ix2 p q)) 1) := by
    funext a; apply Fin.ext
    match a with
    | ⟨0, _⟩ => show win7_1.index t (0 : Fin 2) * 1 + 1 * 0 = 0; omega
    | ⟨1, _⟩ => show win7_1.index t (1 : Fin 2) * 4 + 1 * q.val = win7_2.index t (1 : Fin 2) * 4 + 1 * q.val; omega
  exact (payload_apply _ _ p q).trans (biasRelu_at (V c main_v93) (V c main_v94) _ _ _ h0 h1)

/-- An index of the output array is in point `t`'s block iff each coordinate is in the block's range on its axis. -/
theorem mem_blk (t : Fin cfg7.N) (i : S100000x4.Idx) :
    i ∈ ((cfg7.win 2).blk t).view.set ↔ ∀ a : Fin 2, win7_2.index t a * S2000x4.size a ≤ (i a).val
      ∧ (i a).val < win7_2.index t a * S2000x4.size a + S2000x4.size a := by
  show i ∈ ((View.whole main_v95).slice (win7_2.rect t)).set ↔ _
  rw [View.set_slice_whole, Rect.mem_set_unit]
  exact Iff.rfl

/-- Every index of the output array is in some point's block: row `r` is in the block of point `r / 2000`. -/
theorem cover (i : S100000x4.Idx) :
    ∃ t : Fin cfg7.N, (cfg7.win 2).flush t = true ∧ i ∈ ((cfg7.win 2).blk t).view.set := by
  have hi0 : (i 0).val < 100000 := (i 0).isLt
  have hi1 : (i 1).val < 4 := (i 1).isLt
  have hN : cfg7.N = 50 := N_7
  have ht : (i 0).val / 2000 < cfg7.N := by rw [hN]; omega
  obtain ⟨-, -, -, -, e4, e5⟩ := idx_facts ⟨(i 0).val / 2000, ht⟩
  refine ⟨⟨(i 0).val / 2000, ht⟩, flush7_2 _, ?_⟩
  rw [mem_blk]
  intro a
  match a with
  | ⟨0, _⟩ =>
    show win7_2.index ⟨(i 0).val / 2000, ht⟩ (0 : Fin 2) * 2000 ≤ (i 0).val
      ∧ (i 0).val < win7_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win7_2.index ⟨(i 0).val / 2000, ht⟩ (1 : Fin 2) * 4 ≤ (i 1).val
      ∧ (i 1).val < win7_2.index ⟨(i 0).val / 2000, ht⟩ (1 : Fin 2) * 4 + 4
    rw [e5]
    omega

/-- The output array after the region: the bias-and-maximum of the two input arrays as the region finds them. -/
theorem final (c : Dev nD) :
    (dat7 (F := Ideal) V c).arrAt 2 cfg7.N = Cert.Spec.biasRelu (V c main_v93) (V c main_v94) :=
  (dat7 V c).arrAt_eq_of_cover 2 _ (fun t _ => flushed_eq V c t) cover

end Cert.KernelIdeal.Relu7

end
-- ==== Proof.KernelValue.lean ====
/-
  What the kernel program leaves in its result array: the network of the argument arrays.

  Layer by layer: the matrix-product region leaves `lin h W` of the array it found; the host stretch aggregates it over
  the messages; the bias region leaves `biasRelu` of the aggregate and the bias row.  The four layers composed are
  `Cert.Net.net` of the eleven arguments.
-/
import proofs.«165093_j63015760166990_1_alg».proof.Proof.KernelStages
import proofs.«165093_j63015760166990_1_alg».proof.Proof.Lin0
import proofs.«165093_j63015760166990_1_alg».proof.Proof.Lin2
import proofs.«165093_j63015760166990_1_alg».proof.Proof.Lin4
import proofs.«165093_j63015760166990_1_alg».proof.Proof.Lin6
import proofs.«165093_j63015760166990_1_alg».proof.Proof.Relu1
import proofs.«165093_j63015760166990_1_alg».proof.Proof.Relu3
import proofs.«165093_j63015760166990_1_alg».proof.Proof.Relu5
import proofs.«165093_j63015760166990_1_alg».proof.Proof.Relu7

set_option maxRecDepth 16384

noncomputable section

namespace Cert.KernelIdeal.Value

open Cert.KernelIdeal Cert.KernelIdeal.Gen Cert.Net Cert.KernelIdeal.Stages
open Idealize.ShloMosaic Idealize.ShloMosaic.TcCoe Idealize.SL.Sem

variable (m : (ℓ : Loc nD τ sig) → Buf (Elt Ideal) ℓ) (ρ : Dev nD → PrngReg) (c : Dev nD)

/-- The messages' sources, targets and coefficients, of the launch memory. -/
abbrev src : IArr S3300000 := srcIdx (m ((c : Thread nD τ).loc main_arg1))
abbrev dst : IArr S3300000 := dstIdx (m ((c : Thread nD τ).loc main_arg1))
abbrev cf : FArr S3300000 := coef (src m c) (dst m c) (ewFull (m ((c : Thread nD τ).loc main_arg2)))

/-- Layer 1: the first product, its aggregate, the bias and cut. -/
abbrev h1 : FArr S100000x16 :=
  Cert.Spec.biasRelu (agg16 (src m c) (dst m c) (cf m c) (Cert.Spec.lin (m ((c : Thread nD τ).loc main_arg0)) (m ((c : Thread nD τ).loc main_arg3))))
    (row16 (m ((c : Thread nD τ).loc main_arg4)))
abbrev h2 : FArr S100000x8 :=
  Cert.Spec.biasRelu (agg8 (src m c) (dst m c) (cf m c) (Cert.Spec.lin (h1 m c) (m ((c : Thread nD τ).loc main_arg5))))
    (row8 (m ((c : Thread nD τ).loc main_arg6)))
abbrev h3 : FArr S100000x8 :=
  Cert.Spec.biasRelu (agg8 (src m c) (dst m c) (cf m c) (Cert.Spec.lin (h2 m c) (m ((c : Thread nD τ).loc main_arg7))))
    (row8 (m ((c : Thread nD τ).loc main_arg8)))
abbrev h4 : FArr S100000x4 :=
  Cert.Spec.biasRelu (agg4 (src m c) (dst m c) (cf m c) (Cert.Spec.lin (h3 m c) (m ((c : Thread nD τ).loc main_arg9))))
    (row4 (m ((c : Thread nD τ).loc main_arg10)))

theorem prod1 : W4 m ρ c (Proc.devRef .tc main_v32) = Cert.Spec.lin (m ((c : Thread nD τ).loc main_arg0)) (m ((c : Thread nD τ).loc main_arg3)) :=
  (W4_arr m ρ c 2).trans ((Cert.KernelIdeal.Lin0.final (V3 m ρ) c).trans
    (congrArg₂ Cert.Spec.lin (arg0_at3 m ρ c) (arg3_at3 m ρ c)))

theorem layer1 : W6 m ρ c (Proc.devRef .tc main_v47) = h1 m c :=
  (W6_arr m ρ c 2).trans ((Cert.KernelIdeal.Relu1.final (V5 m ρ) c).trans
    (congrArg₂ Cert.Spec.biasRelu ((agg_at5 m ρ c).trans (congrArg (agg16 _ _ _) (prod1 m ρ c))) (row_at5 m ρ c)))

theorem prod2 : W7 m ρ c (Proc.devRef .tc main_v48) = Cert.Spec.lin (h1 m c) (m ((c : Thread nD τ).loc main_arg5)) :=
  (W7_arr m ρ c 2).trans ((Cert.KernelIdeal.Lin2.final (V6 m ρ) c).trans
    (congrArg₂ Cert.Spec.lin (layer1 m ρ c) (arg5_at6 m ρ c)))

theorem layer2 : W9 m ρ c (Proc.devRef .tc main_v63) = h2 m c :=
  (W9_arr m ρ c 2).trans ((Cert.KernelIdeal.Relu3.final (V8 m ρ) c).trans
    (congrArg₂ Cert.Spec.biasRelu ((agg_at8 m ρ c).trans (congrArg (agg8 _ _ _) (prod2 m ρ c))) (row_at8 m ρ c)))

theorem prod3 : W10 m ρ c (Proc.devRef .tc main_v64) = Cert.Spec.lin (h2 m c) (m ((c : Thread nD τ).loc main_arg7)) :=
  (W10_arr m ρ c 2).trans ((Cert.KernelIdeal.Lin4.final (V9 m ρ) c).trans
    (congrArg₂ Cert.Spec.lin (layer2 m ρ c) (arg7_at9 m ρ c)))

theorem layer3 : W12 m ρ c (Proc.devRef .tc main_v79) = h3 m c :=
  (W12_arr m ρ c 2).trans ((Cert.KernelIdeal.Relu5.final (V11 m ρ) c).trans
    (congrArg₂ Cert.Spec.biasRelu ((agg_at11 m ρ c).trans (congrArg (agg8 _ _ _) (prod3 m ρ c))) (row_at11 m ρ c)))

theorem prod4 : W13 m ρ c (Proc.devRef .tc main_v80) = Cert.Spec.lin (h3 m c) (m ((c : Thread nD τ).loc main_arg9)) :=
  (W13_arr m ρ c 2).trans ((Cert.KernelIdeal.Lin6.final (V12 m ρ) c).trans
    (congrArg₂ Cert.Spec.lin (layer3 m ρ c) (arg9_at12 m ρ c)))

theorem layer4 : W15 m ρ c (Proc.devRef .tc main_v95) = h4 m c :=
  (W15_arr m ρ c 2).trans ((Cert.KernelIdeal.Relu7.final (V14 m ρ) c).trans
    (congrArg₂ Cert.Spec.biasRelu ((agg_at14 m ρ c).trans (congrArg (agg4 _ _ _) (prod4 m ρ c))) (row_at14 m ρ c)))

/-- The result array after the run is the network of the arguments. -/
theorem result : W15 m ρ c (Proc.devRef .tc main_v95)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) :=
  layer4 m ρ c

end Cert.KernelIdeal.Value

end
-- ==== Proof.LibHostDotIx.lean ====
/-
  The host's general dot product of two matrices, read at one entry.

  For an `M × K` matrix `A` and a `K × N` matrix `B` whose product contracts the second axis of `A` with the first
  axis of `B` (no batch axis), the entry `(a, b)` of the product is the sum over the contracted coordinate `c` of
  `A (a, c) * B (c, b)`. Stated over the extended reals, for any extents and for any proof that the dimension numbers
  are well formed, so that it applies to every record with these dimension numbers.
-/
import Idealize.ShloMosaic.Lib.ValueIdx
import Idealize.ShloMosaic.PureOps.Ideal.Laws

noncomputable section

open scoped BigOperators

namespace Cert.LibHostDotIx

open Idealize.ShloMosaic Idealize.ShloMosaic.ValueIdx

/-- The host's product of an `M × K` by a `K × N` matrix at entry `(a, b)`: the sum over the contracted coordinate of
    the products of the entries `A (a, c)` and `B (c, b)`. The contraction index has one axis, of extent `K`; the sum
    over it is re-indexed by that axis's coordinate, and the two operand indices are read coordinate by coordinate. -/
theorem dotGeneral_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (F := Ideal) (⟨[1], [0], [0], [1], [], [], w⟩ : DotDims _ _ _) prec A B (ix2 a b)
      = ∑ c : Fin K, A (ix2 a c) * B (ix2 c b) := by
  simp only [Host.dotGeneral]
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDotIx

end
-- ==== Proof.RefDot.lean ====
/-
  The reference's four matrix products are the layer map.

  Each linear layer of the reference multiplies a 100000-row array by a small weight array with the host's general dot
  product, contracting the second axis of the first with the first axis of the second. At entry (a, b) that product is the
  sum over the contracted coordinate c of the products of the entries (a, c) and (c, b): the matrix product of the two
  arrays, entry by entry.
-/
import proofs.«165093_j63015760166990_1_alg».proof.Proof.Gen.ReferenceIdeal
import proofs.«165093_j63015760166990_1_alg».proof.Proof.Spec
import proofs.«165093_j63015760166990_1_alg».proof.Proof.LibHostDotIx
import Idealize.ShloMosaic.Lib.ValueIdx

noncomputable section

open scoped BigOperators

namespace Cert.ReferenceIdeal.RefDot

open Cert.ReferenceIdeal Cert.ReferenceIdeal.Facts₀ Cert.ReferenceIdeal.Facts Idealize.ShloMosaic
open Idealize.ShloMosaic.ValueIdx

/-- The first layer's product, 100000 × 64 by 64 × 16. -/
theorem dot16 (x : FVec Ideal S100000x64 .f32) (w : FVec Ideal S64x16 .f32) :
    Host.dotGeneral (F := Ideal) dot_S100000x64_S64x16_S100000x16_1_0_0_1_n_n none x w = Cert.Spec.lin x w := by
  funext i
  obtain ⟨a, b, rfl⟩ : ∃ (a : Fin 100000) (b : Fin 16), i = ix2 a b := ⟨i 0, i 1, eq_ix2 i⟩
  exact (Cert.LibHostDotIx.dotGeneral_apply dot_S100000x64_S64x16_S100000x16_1_0_0_1_n_n.wf none x w a b).trans
    (Cert.Spec.lin_apply x w a b).symm

/-- The second layer's product, 100000 × 16 by 16 × 8. -/
theorem dot8a (x : FVec Ideal S100000x16 .f32) (w : FVec Ideal S16x8 .f32) :
    Host.dotGeneral (F := Ideal) dot_S100000x16_S16x8_S100000x8_1_0_0_1_n_n none x w = Cert.Spec.lin x w := by
  funext i
  obtain ⟨a, b, rfl⟩ : ∃ (a : Fin 100000) (b : Fin 8), i = ix2 a b := ⟨i 0, i 1, eq_ix2 i⟩
  exact (Cert.LibHostDotIx.dotGeneral_apply dot_S100000x16_S16x8_S100000x8_1_0_0_1_n_n.wf none x w a b).trans
    (Cert.Spec.lin_apply x w a b).symm

/-- The third layer's product, 100000 × 8 by 8 × 8. -/
theorem dot8b (x : FVec Ideal S100000x8 .f32) (w : FVec Ideal S8x8 .f32) :
    Host.dotGeneral (F := Ideal) dot_S100000x8_S8x8_S100000x8_1_0_0_1_n_n none x w = Cert.Spec.lin x w := by
  funext i
  obtain ⟨a, b, rfl⟩ : ∃ (a : Fin 100000) (b : Fin 8), i = ix2 a b := ⟨i 0, i 1, eq_ix2 i⟩
  exact (Cert.LibHostDotIx.dotGeneral_apply dot_S100000x8_S8x8_S100000x8_1_0_0_1_n_n.wf none x w a b).trans
    (Cert.Spec.lin_apply x w a b).symm

/-- The fourth layer's product, 100000 × 8 by 8 × 4. -/
theorem dot4 (x : FVec Ideal S100000x8 .f32) (w : FVec Ideal S8x4 .f32) :
    Host.dotGeneral (F := Ideal) dot_S100000x8_S8x4_S100000x4_1_0_0_1_n_n none x w = Cert.Spec.lin x w := by
  funext i
  obtain ⟨a, b, rfl⟩ : ∃ (a : Fin 100000) (b : Fin 4), i = ix2 a b := ⟨i 0, i 1, eq_ix2 i⟩
  exact (Cert.LibHostDotIx.dotGeneral_apply dot_S100000x8_S8x4_S100000x4_1_0_0_1_n_n.wf none x w a b).trans
    (Cert.Spec.lin_apply x w a b).symm

end Cert.ReferenceIdeal.RefDot

end
-- ==== Proof.RefRelu.lean ====
/-
  The reference's bias-and-cut step as the layer map `Cert.Spec.biasRelu`.

  The reference turns the bias vector `b` of length `n` into a `1 × n` array, copies that row down the `100000` rows,
  adds it to the array and takes the maximum with a zero copied to every entry.  Entry `(a, q)` of the result is
  `max (x (a, q) + b q) 0`, which is `Cert.Spec.biasRelu x r` for `r` the vector `b` as a one-row array.
-/
import proofs.«165093_j63015760166990_1_alg».proof.Proof.Gen.ReferenceIdeal
import proofs.«165093_j63015760166990_1_alg».proof.Proof.Net
import proofs.«165093_j63015760166990_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefRelu

open Cert.ReferenceIdeal Cert.ReferenceIdeal.Facts₀ Cert.ReferenceIdeal.Facts Idealize.ShloMosaic
open Idealize.ShloMosaic.ValueIdx

/-- The reference's bias-and-cut at width 16: the bias vector as a row, copied down the rows, added, and the maximum
    with a broadcast zero is the row vector added to every row and the maximum with zero, entry by entry. -/
theorem relu16 (x : FVec Ideal S100000x16 .f32) (b : FVec Ideal S16 .f32) :
    maximumf (addf x (broadcastInDim S100000x16 ![0, 1] bcast_S1x16_S100000x16_0_1 (broadcastInDim S1x16 ![1] bcast_S16_S1x16_1 b))) (broadcastInDim S100000x16 ![] bcast_S_S100000x16 (constant (F := Ideal) S_ .f32 0x00000000#32)) = Cert.Spec.biasRelu x (Cert.Net.row16 b) := by
  funext i
  obtain ⟨a, q, rfl⟩ : ∃ (a : Fin 100000) (q : Fin 16), i = ix2 a q := ⟨i 0, i 1, eq_ix2 i⟩
  rw [Cert.Spec.biasRelu_apply, maximumf_apply, addf_apply, broadcastInDim_scalar_apply, constant_apply,
    Ideal.ofBits_zero_f32]
  have hrow : broadcastInDim S100000x16 ![0, 1] bcast_S1x16_S100000x16_0_1 (broadcastInDim S1x16 ![1] bcast_S16_S1x16_1 b) (ix2 a q)
      = Cert.Net.row16 b (ix2 (0 : Fin 1) q) := by
    refine (broadcastInDim_apply _ _ _ (ix2 a q) (ix2 (0 : Fin 1) q) fun ax => ?_).trans ?_
    · match ax with
      | ⟨0, _⟩ => rfl
      | ⟨1, _⟩ => rfl
    refine (broadcastInDim_apply _ _ _ (ix2 (0 : Fin 1) q) (ix1 q) fun ax => ?_).trans ?_
    · match ax with
      | ⟨0, _⟩ => rfl
    exact (shapeCast_a_1a_apply b _ (0 : Fin 1) q).symm
  rw [hrow]

/-- The reference's bias-and-cut at width 8: the bias vector as a row, copied down the rows, added, and the maximum
    with a broadcast zero is the row vector added to every row and the maximum with zero, entry by entry. -/
theorem relu8 (x : FVec Ideal S100000x8 .f32) (b : FVec Ideal S8 .f32) :
    maximumf (addf x (broadcastInDim S100000x8 ![0, 1] bcast_S1x8_S100000x8_0_1 (broadcastInDim S1x8 ![1] bcast_S8_S1x8_1 b))) (broadcastInDim S100000x8 ![] bcast_S_S100000x8 (constant (F := Ideal) S_ .f32 0x00000000#32)) = Cert.Spec.biasRelu x (Cert.Net.row8 b) := by
  funext i
  obtain ⟨a, q, rfl⟩ : ∃ (a : Fin 100000) (q : Fin 8), i = ix2 a q := ⟨i 0, i 1, eq_ix2 i⟩
  rw [Cert.Spec.biasRelu_apply, maximumf_apply, addf_apply, broadcastInDim_scalar_apply, constant_apply,
    Ideal.ofBits_zero_f32]
  have hrow : broadcastInDim S100000x8 ![0, 1] bcast_S1x8_S100000x8_0_1 (broadcastInDim S1x8 ![1] bcast_S8_S1x8_1 b) (ix2 a q)
      = Cert.Net.row8 b (ix2 (0 : Fin 1) q) := by
    refine (broadcastInDim_apply _ _ _ (ix2 a q) (ix2 (0 : Fin 1) q) fun ax => ?_).trans ?_
    · match ax with
      | ⟨0, _⟩ => rfl
      | ⟨1, _⟩ => rfl
    refine (broadcastInDim_apply _ _ _ (ix2 (0 : Fin 1) q) (ix1 q) fun ax => ?_).trans ?_
    · match ax with
      | ⟨0, _⟩ => rfl
    exact (shapeCast_a_1a_apply b _ (0 : Fin 1) q).symm
  rw [hrow]

/-- The reference's bias-and-cut at width 4: the bias vector as a row, copied down the rows, added, and the maximum
    with a broadcast zero is the row vector added to every row and the maximum with zero, entry by entry. -/
theorem relu4 (x : FVec Ideal S100000x4 .f32) (b : FVec Ideal S4 .f32) :
    maximumf (addf x (broadcastInDim S100000x4 ![0, 1] bcast_S1x4_S100000x4_0_1 (broadcastInDim S1x4 ![1] bcast_S4_S1x4_1 b))) (broadcastInDim S100000x4 ![] bcast_S_S100000x4 (constant (F := Ideal) S_ .f32 0x00000000#32)) = Cert.Spec.biasRelu x (Cert.Net.row4 b) := by
  funext i
  obtain ⟨a, q, rfl⟩ : ∃ (a : Fin 100000) (q : Fin 4), i = ix2 a q := ⟨i 0, i 1, eq_ix2 i⟩
  rw [Cert.Spec.biasRelu_apply, maximumf_apply, addf_apply, broadcastInDim_scalar_apply, constant_apply,
    Ideal.ofBits_zero_f32]
  have hrow : broadcastInDim S100000x4 ![0, 1] bcast_S1x4_S100000x4_0_1 (broadcastInDim S1x4 ![1] bcast_S4_S1x4_1 b) (ix2 a q)
      = Cert.Net.row4 b (ix2 (0 : Fin 1) q) := by
    refine (broadcastInDim_apply _ _ _ (ix2 a q) (ix2 (0 : Fin 1) q) fun ax => ?_).trans ?_
    · match ax with
      | ⟨0, _⟩ => rfl
      | ⟨1, _⟩ => rfl
    refine (broadcastInDim_apply _ _ _ (ix2 (0 : Fin 1) q) (ix1 q) fun ax => ?_).trans ?_
    · match ax with
      | ⟨0, _⟩ => rfl
    exact (shapeCast_a_1a_apply b _ (0 : Fin 1) q).symm
  rw [hrow]

end Cert.ReferenceIdeal.RefRelu

end
-- ==== Proof.RefValue.lean ====
/-
  What the reference program computes: the same network of the argument arrays.

  The reference's result is the composed term of its host operations.  Its four matrix products are `Cert.Spec.lin`,
  its four "add the bias row, take the maximum with zero" are `Cert.Spec.biasRelu` of the bias as a one-row array, and
  everything else — the messages' sources, targets and coefficients, and each layer's gather, scaling and sum into the
  targets — is, operation for operation, what `Cert.Net.net` is made of.  Each of those pieces is first recognised on
  its own, as the reference spells it, and the result term is then read piece by piece from the inside out.
-/
import proofs.«165093_j63015760166990_1_alg».proof.Proof.Gen.ReferenceIdeal.Run
import proofs.«165093_j63015760166990_1_alg».proof.Proof.Net
import proofs.«165093_j63015760166990_1_alg».proof.Proof.RefDot
import proofs.«165093_j63015760166990_1_alg».proof.Proof.RefRelu

set_option maxRecDepth 16384

noncomputable section

namespace Cert.ReferenceIdeal.RefValue

open Idealize.ShloMosaic Idealize.ShloMosaic.TcCoe Idealize.SL.Sem

section Pieces

open Cert.ReferenceIdeal Cert.ReferenceIdeal.Facts₀ Cert.ReferenceIdeal.Facts

/-! ## The network's pieces, as the reference spells them -/

/-- The messages' sources: row 0 of the edge list, then every node once. -/
theorem srcIdx_eq (ei : IVec S2x3200000 32) :
    concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0
      = Cert.Net.srcIdx ei := rfl

/-- The messages' targets: row 1 of the edge list, then every node once. -/
theorem dstIdx_eq (ei : IVec S2x3200000 32) :
    concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0
      = Cert.Net.dstIdx ei := rfl

/-- The edge weights, then a one for every self loop. -/
theorem ewFull_eq (ew : FVec Ideal S3200000 .f32) :
    concatenate S3300000 0 [⟨S3200000, ew⟩, ⟨S100000, (broadcastInDim S100000 ![] bcast_S_S100000 (constant (F := Ideal) S_ .f32 0x3F800000#32))⟩] concatenates_S3200000_S100000_S3300000_d0
      = Cert.Net.ewFull ew := rfl

/-- The weighted in-degree. -/
theorem deg_eq (d : IVec S3300000 32) (w : FVec Ideal S3300000 .f32) :
    Host.scatterAdd (F := Ideal) scatter_S100000_S3300000x1_S3300000_n_0_0_1 (broadcastInDim S100000 ![] bcast_S_S100000 (constant (F := Ideal) S_ .f32 0x00000000#32)) (broadcastInDim S3300000x1 ![0] bcast_S3300000_S3300000x1_0 d) w
      = Cert.Net.deg d w := rfl

/-- The inverse square root of a positive degree, zero elsewhere. -/
theorem dinv_eq (g : FVec Ideal S100000 .f32) :
    select (cmpf (F := Ideal) .ogt g (broadcastInDim S100000 ![] bcast_S_S100000 (constant (F := Ideal) S_ .f32 0x00000000#32))) (Host.rsqrt (F := Ideal) g) (broadcastInDim S100000 ![] bcast_S_S100000 (id (constant (F := Ideal) S_ .f32 0x00000000#32)))
      = Cert.Net.dinv g := rfl

/-- A node number below zero counted from the end of the node list. -/
theorem wrapIdx_eq (i : IVec S3300000 32) :
    select (cmpi .slt i (broadcastInDim S3300000 ![] bcast_S_S3300000 (constantI S_ 32 0#32))) (addi i (broadcastInDim S3300000 ![] bcast_S_S3300000 (constantI S_ 32 100000#32))) i
      = Cert.Net.wrapIdx i := rfl

/-- A per-node quantity read at the node of every message. -/
theorem atNodes_eq (v : FVec Ideal S100000 .f32) (i : IVec S3300000 32) :
    Host.gather gather_S100000_S3300000x1_S3300000_n_0_n_n_0_1_1 v (broadcastInDim S3300000x1 ![0] bcast_S3300000_S3300000x1_0 (Cert.Net.wrapIdx i))
      = Cert.Net.atNodes v i := rfl

/-- The coefficient of every message. -/
theorem coef_eq (s d : IVec S3300000 32) (w : FVec Ideal S3300000 .f32) :
    mulf (F := Ideal) (mulf (F := Ideal) (Cert.Net.atNodes (Cert.Net.dinv (Cert.Net.deg d w)) s) w) (Cert.Net.atNodes (Cert.Net.dinv (Cert.Net.deg d w)) d)
      = Cert.Net.coef s d w := rfl

/-- Width 16: the rows gathered at the sources, scaled by the coefficients and summed into the targets. -/
theorem agg16_eq (s d : IVec S3300000 32) (n : FVec Ideal S3300000 .f32) (hw : FVec Ideal S100000x16 .f32) :
    Host.scatterAdd (F := Ideal) scatter_S100000x16_S3300000x1_S3300000x16_1_0_0_1 (broadcastInDim S100000x16 ![] bcast_S_S100000x16 (constant (F := Ideal) S_ .f32 0x00000000#32)) (broadcastInDim S3300000x1 ![0] bcast_S3300000_S3300000x1_0 d) (mulf (F := Ideal) (Host.gather gather_S100000x16_S3300000x1_S3300000x16_1_0_n_n_0_1_116 hw (broadcastInDim S3300000x1 ![0] bcast_S3300000_S3300000x1_0 (Cert.Net.wrapIdx s))) (broadcastInDim S3300000x16 ![0, 1] bcast_S3300000x1_S3300000x16_0_1 (broadcastInDim S3300000x1 ![0] bcast_S3300000_S3300000x1_0 n)))
      = Cert.Net.agg16 s d n hw := rfl

/-- Width 8: the rows gathered at the sources, scaled by the coefficients and summed into the targets. -/
theorem agg8_eq (s d : IVec S3300000 32) (n : FVec Ideal S3300000 .f32) (hw : FVec Ideal S100000x8 .f32) :
    Host.scatterAdd (F := Ideal) scatter_S100000x8_S3300000x1_S3300000x8_1_0_0_1 (broadcastInDim S100000x8 ![] bcast_S_S100000x8 (constant (F := Ideal) S_ .f32 0x00000000#32)) (broadcastInDim S3300000x1 ![0] bcast_S3300000_S3300000x1_0 d) (mulf (F := Ideal) (Host.gather gather_S100000x8_S3300000x1_S3300000x8_1_0_n_n_0_1_18 hw (broadcastInDim S3300000x1 ![0] bcast_S3300000_S3300000x1_0 (Cert.Net.wrapIdx s))) (broadcastInDim S3300000x8 ![0, 1] bcast_S3300000x1_S3300000x8_0_1 (broadcastInDim S3300000x1 ![0] bcast_S3300000_S3300000x1_0 n)))
      = Cert.Net.agg8 s d n hw := rfl

/-- Width 4: the rows gathered at the sources, scaled by the coefficients and summed into the targets. -/
theorem agg4_eq (s d : IVec S3300000 32) (n : FVec Ideal S3300000 .f32) (hw : FVec Ideal S100000x4 .f32) :
    Host.scatterAdd (F := Ideal) scatter_S100000x4_S3300000x1_S3300000x4_1_0_0_1 (broadcastInDim S100000x4 ![] bcast_S_S100000x4 (constant (F := Ideal) S_ .f32 0x00000000#32)) (broadcastInDim S3300000x1 ![0] bcast_S3300000_S3300000x1_0 d) (mulf (F := Ideal) (Host.gather gather_S100000x4_S3300000x1_S3300000x4_1_0_n_n_0_1_14 hw (broadcastInDim S3300000x1 ![0] bcast_S3300000_S3300000x1_0 (Cert.Net.wrapIdx s))) (broadcastInDim S3300000x4 ![0, 1] bcast_S3300000x1_S3300000x4_0_1 (broadcastInDim S3300000x1 ![0] bcast_S3300000_S3300000x1_0 n)))
      = Cert.Net.agg4 s d n hw := rfl

end Pieces

/-! ## The result -/

/-- The reference's result term is the network of the arguments. -/
theorem result (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v103 (F := Ideal) m c
      = Cert.Net.net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) := by
  unfold Cert.ReferenceIdeal.Value.res_main_v103
  -- the four matrix products, and the messages' sources and targets
  simp only [Cert.ReferenceIdeal.RefDot.dot16, Cert.ReferenceIdeal.RefDot.dot8a, Cert.ReferenceIdeal.RefDot.dot8b,
    Cert.ReferenceIdeal.RefDot.dot4, srcIdx_eq, dstIdx_eq]
  -- the graph's quantities, from the inside out: weights, wrapped node numbers (sources, targets), degree, its
  -- inverse square root, its value at the two ends of every message, the coefficients
  rw [ewFull_eq, wrapIdx_eq, wrapIdx_eq, deg_eq, dinv_eq, atNodes_eq, atNodes_eq, coef_eq]
  -- each layer's sum into the targets (the width 8 occurs twice), then its bias and cut
  rw [agg16_eq, agg8_eq, agg8_eq, agg4_eq]
  rw [Cert.ReferenceIdeal.RefRelu.relu16, Cert.ReferenceIdeal.RefRelu.relu8, Cert.ReferenceIdeal.RefRelu.relu8,
    Cert.ReferenceIdeal.RefRelu.relu4]
  rfl

end Cert.ReferenceIdeal.RefValue

end
-- ==== Proof.lean ====
/-
  The kernel and the reference compute one function.

  Both programs are a four-layer graph network: from the edge list and the edge weights, the messages' sources, targets
  and symmetric coefficients (the inverse square roots of the weighted in-degrees at the two ends, times the weight);
  then four times: multiply the node features by a weight matrix, gather the rows at the sources, scale by the
  coefficients, sum into the targets, add the bias and take the maximum with zero.  The kernel does the matrix product
  and the bias-and-maximum in grid regions, block of 2000 rows by block, rounding the product's operands to a shorter
  float format first; the reference does them as whole-array host operations.  Over the extended reals a change of
  format is the identity and a sum does not depend on how it is blocked, so each region leaves exactly the whole-array
  product (`Cert.Spec.lin`) or the whole-array bias-and-maximum (`Cert.Spec.biasRelu`), and every other operation is
  the same host operation in both programs.  No law that needs finiteness is used: the precondition is never opened.

  The three frames are the programs' runs with the result dropped; the idealization rewrote nothing, so `preserves` is
  `True`; `algebraic` pairs the kernel's run (result array = `Cert.Net.net` of the arguments) with the reference's.
-/
import proofs.«165093_j63015760166990_1_alg».proof.Defs
import proofs.«165093_j63015760166990_1_alg».proof.Proof.Gen.Kernel
import proofs.«165093_j63015760166990_1_alg».proof.Proof.Gen.Kernel.Frame
import proofs.«165093_j63015760166990_1_alg».proof.Proof.Gen.KernelIdeal
import proofs.«165093_j63015760166990_1_alg».proof.Proof.Gen.KernelIdeal.Frame
import proofs.«165093_j63015760166990_1_alg».proof.Proof.Gen.ReferenceIdeal
import proofs.«165093_j63015760166990_1_alg».proof.Proof.Gen.ReferenceIdeal.Run
import proofs.«165093_j63015760166990_1_alg».proof.Proof.Gen.Pre_finite_inputs
import proofs.«165093_j63015760166990_1_alg».proof.Proof.KernelRun
import proofs.«165093_j63015760166990_1_alg».proof.Proof.KernelValue
import proofs.«165093_j63015760166990_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the network of the (agreeing) arguments. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Value.result m ρ c), (h c).2⟩)
      (Cert.KernelIdeal.RunOut.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.RefValue.result m' c, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
